-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S11008x32x1 : S_.BroadcastsInDim S11008x32x1 (![] : Fin 0 → Fin S11008x32x1.rank)
  reducesTo_S11008x32x1_S_d0_1_2 : S11008x32x1.ReducesTo [0, 1, 2] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2x1024x4096 .f32) (main_arg1 : IVec S11008x32x128 32) (main_arg2 : FVec F S11008x32x1 .f32) (main_arg3 : IVec S11008x32x1 32) (main_arg4 : FVec F S4096 .f32) (main_arg5 : FVec F S11008 .f32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S11008x32x1 .f32 := Host.absf main_arg2
  let main_cst_0 : FVec F S_ .f32 := constant S_ .f32 0x7F800000#32
  let main_v5 : FVec F S11008x32x1 .f32 := broadcastInDim S11008x32x1 ![] bcast_S_S11008x32x1 main_cst_0
  let main_v6 : IVec S11008x32x1 1 := cmpf .olt main_v4 main_v5
  let main_c_1 : IVec S_ 1 := constantI S_ 1 1#1
  let main_v7 : IVec S_ 1 := (fun x v => Host.reduce IntOp.andi x v reducesTo_S11008x32x1_S_d0_1_2 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg5
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2x1024x4096 : Shape := ⟨3, ![2, 1024, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S2048x4096 : Shape := ⟨2, ![2048, 4096]⟩
abbrev S11008x4096 : Shape := ⟨2, ![11008, 4096]⟩
abbrev S11008x32 : Shape := ⟨2, ![11008, 32]⟩
abbrev S1x4096 : Shape := ⟨2, ![1, 4096]⟩
abbrev S1x11008 : Shape := ⟨2, ![1, 11008]⟩
abbrev S2048x11008 : Shape := ⟨2, ![2048, 11008]⟩
abbrev S512x4096 : Shape := ⟨2, ![512, 4096]⟩
abbrev S256x4096 : Shape := ⟨2, ![256, 4096]⟩
abbrev S256x32 : Shape := ⟨2, ![256, 32]⟩
abbrev S1x256 : Shape := ⟨2, ![1, 256]⟩
abbrev S512x256 : Shape := ⟨2, ![512, 256]⟩
abbrev S512x128 : Shape := ⟨2, ![512, 128]⟩
abbrev S256x128 : Shape := ⟨2, ![256, 128]⟩
abbrev S256x1 : Shape := ⟨2, ![256, 1]⟩
abbrev S2x1024x11008 : Shape := ⟨3, ![2, 1024, 11008]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x4096, .f32⟩
  | .hbm, ⟨1, _⟩ => ⟨S11008x32x128, .i32⟩
  | .hbm, ⟨2, _⟩ => ⟨S11008x32x1, .f32⟩
  | .hbm, ⟨3, _⟩ => ⟨S11008x32x1, .i32⟩
  | .hbm, ⟨4, _⟩ => ⟨S4096, .f32⟩
  | .hbm, ⟨5, _⟩ => ⟨S11008, .f32⟩
  | .hbm, ⟨6, _⟩ => ⟨S2048x4096, .f32⟩
  | .hbm, ⟨7, _⟩ => ⟨S11008x4096, .i32⟩
  | .hbm, ⟨8, _⟩ => ⟨S11008x32, .f32⟩
  | .hbm, ⟨9, _⟩ => ⟨S11008x32, .i32⟩
  | .hbm, ⟨10, _⟩ => ⟨S11008x32, .f32⟩
  | .hbm, ⟨11, _⟩ => ⟨S1x4096, .f32⟩
  | .hbm, ⟨12, _⟩ => ⟨S1x11008, .f32⟩
  | .hbm, ⟨13, _⟩ => ⟨S2048x11008, .f32⟩
  | .hbm, ⟨14, _⟩ => ⟨S2x1024x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x4096, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2x1024x4096_S2048x4096 : S2x1024x4096.ShapeCasts S2048x4096
  shapeCasts_S11008x32x128_S11008x4096 : S11008x32x128.ShapeCasts S11008x4096
  shapeCasts_S11008x32x1_S11008x32 : S11008x32x1.ShapeCasts S11008x32
  shapeCasts_S4096_S1x4096 : S4096.ShapeCasts S1x4096
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x128 : S512x4096.Slices ![0, 0] S512x128
  inb_S256x4096_S256x128_0_0 : ∀ a, (![0, 0] : Fin 2 → Nat) a + S256x128.size a ≤ S256x4096.size a
  h_S256x128 : 0 < S256x128.numel
  shapeCasts_S256x128_S256x128 : S256x128.ShapeCasts S256x128
  inb_S256x32_S256x1_0_0 : ∀ a, (![0, 0] : Fin 2 → Nat) a + S256x1.size a ≤ S256x32.size a
  h_S256x1 : 0 < S256x1.numel
  shapeCasts_S256x1_S256x1 : S256x1.ShapeCasts S256x1
  broadcasts_S256x1_S256x128 : S256x1.Broadcasts S256x128
  bitsLt_bf16_f32 : FTy.bits .bf16 < FTy.bits .f32
  slices_S512x4096_o0_128_S512x128 : S512x4096.Slices ![0, 128] S512x128
  inb_S256x4096_S256x128_0_128 : ∀ a, (![0, 128] : Fin 2 → Nat) a + S256x128.size a ≤ S256x4096.size a
  inb_S256x32_S256x1_0_1 : ∀ a, (![0, 1] : Fin 2 → Nat) a + S256x1.size a ≤ S256x32.size a
  slices_S512x4096_o0_256_S512x128 : S512x4096.Slices ![0, 256] S512x128
  inb_S256x4096_S256x128_0_256 : ∀ a, (![0, 256] : Fin 2 → Nat) a + S256x128.size a ≤ S256x4096.size a
  inb_S256x32_S256x1_0_2 : ∀ a, (![0, 2] : Fin 2 → Nat) a + S256x1.size a ≤ S256x32.size a
  slices_S512x4096_o0_384_S512x128 : S512x4096.Slices ![0, 384] S512x128
  inb_S256x4096_S256x128_0_384 : ∀ a, (![0, 384] : Fin 2 → Nat) a + S256x128.size a ≤ S256x4096.size a
  inb_S256x32_S256x1_0_3 : ∀ a, (![0, 3] : Fin 2 → Nat) a + S256x1.size a ≤ S256x32.size a
  slices_S512x4096_o0_512_S512x128 : S512x4096.Slices ![0, 512] S512x128
  inb_S256x4096_S256x128_0_512 : ∀ a, (![0, 512] : Fin 2 → Nat) a + S256x128.size a ≤ S256x4096.size a
  inb_S256x32_S256x1_0_4 : ∀ a, (![0, 4] : Fin 2 → Nat) a + S256x1.size a ≤ S256x32.size a
  slices_S512x4096_o0_640_S512x128 : S512x4096.Slices ![0, 640] S512x128
  inb_S256x4096_S256x128_0_640 : ∀ a, (![0, 640] : Fin 2 → Nat) a + S256x128.size a ≤ S256x4096.size a
  inb_S256x32_S256x1_0_5 : ∀ a, (![0, 5] : Fin 2 → Nat) a + S256x1.size a ≤ S256x32.size a
  slices_S512x4096_o0_768_S512x128 : S512x4096.Slices ![0, 768] S512x128
  inb_S256x4096_S256x128_0_768 : ∀ a, (![0, 768] : Fin 2 → Nat) a + S256x128.size a ≤ S256x4096.size a
  inb_S256x32_S256x1_0_6 : ∀ a, (![0, 6] : Fin 2 → Nat) a + S256x1.size a ≤ S256x32.size a
  slices_S512x4096_o0_896_S512x128 : S512x4096.Slices ![0, 896] S512x128
  inb_S256x4096_S256x128_0_896 : ∀ a, (![0, 896] : Fin 2 → Nat) a + S256x128.size a ≤ S256x4096.size a
  inb_S256x32_S256x1_0_7 : ∀ a, (![0, 7] : Fin 2 → Nat) a + S256x1.size a ≤ S256x32.size a
  slices_S512x4096_o0_1024_S512x128 : S512x4096.Slices ![0, 1024] S512x128
  inb_S256x4096_S256x128_0_1024 : ∀ a, (![0, 1024] : Fin 2 → Nat) a + S256x128.size a ≤ S256x4096.size a
  inb_S256x32_S256x1_0_8 : ∀ a, (![0, 8] : Fin 2 → Nat) a + S256x1.size a ≤ S256x32.size a
  slices_S512x4096_o0_1152_S512x128 : S512x4096.Slices ![0, 1152] S512x128
  inb_S256x4096_S256x128_0_1152 : ∀ a, (![0, 1152] : Fin 2 → Nat) a + S256x128.size a ≤ S256x4096.size a
  inb_S256x32_S256x1_0_9 : ∀ a, (![0, 9] : Fin 2 → Nat) a + S256x1.size a ≤ S256x32.size a
  slices_S512x4096_o0_1280_S512x128 : S512x4096.Slices ![0, 1280] S512x128
  inb_S256x4096_S256x128_0_1280 : ∀ a, (![0, 1280] : Fin 2 → Nat) a + S256x128.size a ≤ S256x4096.size a
  inb_S256x32_S256x1_0_10 : ∀ a, (![0, 10] : Fin 2 → Nat) a + S256x1.size a ≤ S256x32.size a
  slices_S512x4096_o0_1408_S512x128 : S512x4096.Slices ![0, 1408] S512x128
  inb_S256x4096_S256x128_0_1408 : ∀ a, (![0, 1408] : Fin 2 → Nat) a + S256x128.size a ≤ S256x4096.size a
  inb_S256x32_S256x1_0_11 : ∀ a, (![0, 11] : Fin 2 → Nat) a + S256x1.size a ≤ S256x32.size a
  slices_S512x4096_o0_1536_S512x128 : S512x4096.Slices ![0, 1536] S512x128
  inb_S256x4096_S256x128_0_1536 : ∀ a, (![0, 1536] : Fin 2 → Nat) a + S256x128.size a ≤ S256x4096.size a
  inb_S256x32_S256x1_0_12 : ∀ a, (![0, 12] : Fin 2 → Nat) a + S256x1.size a ≤ S256x32.size a
  slices_S512x4096_o0_1664_S512x128 : S512x4096.Slices ![0, 1664] S512x128
  inb_S256x4096_S256x128_0_1664 : ∀ a, (![0, 1664] : Fin 2 → Nat) a + S256x128.size a ≤ S256x4096.size a
  inb_S256x32_S256x1_0_13 : ∀ a, (![0, 13] : Fin 2 → Nat) a + S256x1.size a ≤ S256x32.size a
  slices_S512x4096_o0_1792_S512x128 : S512x4096.Slices ![0, 1792] S512x128
  inb_S256x4096_S256x128_0_1792 : ∀ a, (![0, 1792] : Fin 2 → Nat) a + S256x128.size a ≤ S256x4096.size a
  inb_S256x32_S256x1_0_14 : ∀ a, (![0, 14] : Fin 2 → Nat) a + S256x1.size a ≤ S256x32.size a
  slices_S512x4096_o0_1920_S512x128 : S512x4096.Slices ![0, 1920] S512x128
  inb_S256x4096_S256x128_0_1920 : ∀ a, (![0, 1920] : Fin 2 → Nat) a + S256x128.size a ≤ S256x4096.size a
  inb_S256x32_S256x1_0_15 : ∀ a, (![0, 15] : Fin 2 → Nat) a + S256x1.size a ≤ S256x32.size a
  slices_S512x4096_o0_2048_S512x128 : S512x4096.Slices ![0, 2048] S512x128
  inb_S256x4096_S256x128_0_2048 : ∀ a, (![0, 2048] : Fin 2 → Nat) a + S256x128.size a ≤ S256x4096.size a
  inb_S256x32_S256x1_0_16 : ∀ a, (![0, 16] : Fin 2 → Nat) a + S256x1.size a ≤ S256x32.size a
  slices_S512x4096_o0_2176_S512x128 : S512x4096.Slices ![0, 2176] S512x128
  inb_S256x4096_S256x128_0_2176 : ∀ a, (![0, 2176] : Fin 2 → Nat) a + S256x128.size a ≤ S256x4096.size a
  inb_S256x32_S256x1_0_17 : ∀ a, (![0, 17] : Fin 2 → Nat) a + S256x1.size a ≤ S256x32.size a
  slices_S512x4096_o0_2304_S512x128 : S512x4096.Slices ![0, 2304] S512x128
  inb_S256x4096_S256x128_0_2304 : ∀ a, (![0, 2304] : Fin 2 → Nat) a + S256x128.size a ≤ S256x4096.size a
  inb_S256x32_S256x1_0_18 : ∀ a, (![0, 18] : Fin 2 → Nat) a + S256x1.size a ≤ S256x32.size a
  slices_S512x4096_o0_2432_S512x128 : S512x4096.Slices ![0, 2432] S512x128
  inb_S256x4096_S256x128_0_2432 : ∀ a, (![0, 2432] : Fin 2 → Nat) a + S256x128.size a ≤ S256x4096.size a
  inb_S256x32_S256x1_0_19 : ∀ a, (![0, 19] : Fin 2 → Nat) a + S256x1.size a ≤ S256x32.size a
  slices_S512x4096_o0_2560_S512x128 : S512x4096.Slices ![0, 2560] S512x128
  inb_S256x4096_S256x128_0_2560 : ∀ a, (![0, 2560] : Fin 2 → Nat) a + S256x128.size a ≤ S256x4096.size a
  inb_S256x32_S256x1_0_20 : ∀ a, (![0, 20] : Fin 2 → Nat) a + S256x1.size a ≤ S256x32.size a
  slices_S512x4096_o0_2688_S512x128 : S512x4096.Slices ![0, 2688] S512x128
  inb_S256x4096_S256x128_0_2688 : ∀ a, (![0, 2688] : Fin 2 → Nat) a + S256x128.size a ≤ S256x4096.size a
  inb_S256x32_S256x1_0_21 : ∀ a, (![0, 21] : Fin 2 → Nat) a + S256x1.size a ≤ S256x32.size a
  slices_S512x4096_o0_2816_S512x128 : S512x4096.Slices ![0, 2816] S512x128
  inb_S256x4096_S256x128_0_2816 : ∀ a, (![0, 2816] : Fin 2 → Nat) a + S256x128.size a ≤ S256x4096.size a
  inb_S256x32_S256x1_0_22 : ∀ a, (![0, 22] : Fin 2 → Nat) a + S256x1.size a ≤ S256x32.size a
  slices_S512x4096_o0_2944_S512x128 : S512x4096.Slices ![0, 2944] S512x128
  inb_S256x4096_S256x128_0_2944 : ∀ a, (![0, 2944] : Fin 2 → Nat) a + S256x128.size a ≤ S256x4096.size a
  inb_S256x32_S256x1_0_23 : ∀ a, (![0, 23] : Fin 2 → Nat) a + S256x1.size a ≤ S256x32.size a
  slices_S512x4096_o0_3072_S512x128 : S512x4096.Slices ![0, 3072] S512x128
  inb_S256x4096_S256x128_0_3072 : ∀ a, (![0, 3072] : Fin 2 → Nat) a + S256x128.size a ≤ S256x4096.size a
  inb_S256x32_S256x1_0_24 : ∀ a, (![0, 24] : Fin 2 → Nat) a + S256x1.size a ≤ S256x32.size a
  slices_S512x4096_o0_3200_S512x128 : S512x4096.Slices ![0, 3200] S512x128
  inb_S256x4096_S256x128_0_3200 : ∀ a, (![0, 3200] : Fin 2 → Nat) a + S256x128.size a ≤ S256x4096.size a
  inb_S256x32_S256x1_0_25 : ∀ a, (![0, 25] : Fin 2 → Nat) a + S256x1.size a ≤ S256x32.size a
  slices_S512x4096_o0_3328_S512x128 : S512x4096.Slices ![0, 3328] S512x128
  inb_S256x4096_S256x128_0_3328 : ∀ a, (![0, 3328] : Fin 2 → Nat) a + S256x128.size a ≤ S256x4096.size a
  inb_S256x32_S256x1_0_26 : ∀ a, (![0, 26] : Fin 2 → Nat) a + S256x1.size a ≤ S256x32.size a
  slices_S512x4096_o0_3456_S512x128 : S512x4096.Slices ![0, 3456] S512x128
  inb_S256x4096_S256x128_0_3456 : ∀ a, (![0, 3456] : Fin 2 → Nat) a + S256x128.size a ≤ S256x4096.size a
  inb_S256x32_S256x1_0_27 : ∀ a, (![0, 27] : Fin 2 → Nat) a + S256x1.size a ≤ S256x32.size a
  slices_S512x4096_o0_3584_S512x128 : S512x4096.Slices ![0, 3584] S512x128
  inb_S256x4096_S256x128_0_3584 : ∀ a, (![0, 3584] : Fin 2 → Nat) a + S256x128.size a ≤ S256x4096.size a
  inb_S256x32_S256x1_0_28 : ∀ a, (![0, 28] : Fin 2 → Nat) a + S256x1.size a ≤ S256x32.size a
  slices_S512x4096_o0_3712_S512x128 : S512x4096.Slices ![0, 3712] S512x128
  inb_S256x4096_S256x128_0_3712 : ∀ a, (![0, 3712] : Fin 2 → Nat) a + S256x128.size a ≤ S256x4096.size a
  inb_S256x32_S256x1_0_29 : ∀ a, (![0, 29] : Fin 2 → Nat) a + S256x1.size a ≤ S256x32.size a
  slices_S512x4096_o0_3840_S512x128 : S512x4096.Slices ![0, 3840] S512x128
  inb_S256x4096_S256x128_0_3840 : ∀ a, (![0, 3840] : Fin 2 → Nat) a + S256x128.size a ≤ S256x4096.size a
  inb_S256x32_S256x1_0_30 : ∀ a, (![0, 30] : Fin 2 → Nat) a + S256x1.size a ≤ S256x32.size a
  slices_S512x4096_o0_3968_S512x128 : S512x4096.Slices ![0, 3968] S512x128
  inb_S256x4096_S256x128_0_3968 : ∀ a, (![0, 3968] : Fin 2 → Nat) a + S256x128.size a ≤ S256x4096.size a
  inb_S256x32_S256x1_0_31 : ∀ a, (![0, 31] : Fin 2 → Nat) a + S256x1.size a ≤ S256x32.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S2048x11008_S2x1024x11008 : S2048x11008.ShapeCasts S2x1024x11008
  dot_S512x128_S256x128_S512x256_1_1_0_0_n_n_wf : DotDims.WF S512x128 S256x128 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .f32 = 32 ∨ (Rect.block (s := S2048x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x11008.size a
  hwx0_5 : ∀ i : grid0.Coords, EltTy.bits .f32 = 32 ∨ (Rect.block (s := S1x11008) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x11008.size a
  hwx0_6 : ∀ i : grid0.Coords, EltTy.bits .f32 = 32 ∨ (Rect.block (s := S2048x11008) S512x256.size (cc0_transform_6 i) (hinb0_6 i)).WholeWords (EltTy.packing .f32)

variable [Facts₀]

def dot_S512x128_S256x128_S512x256_1_1_0_0_n_n : DotDims S512x128 S256x128 S512x256 where
  lhsContracting := [1]
  rhsContracting := [1]
  lhsNonContracting := [0]
  rhsNonContracting := [0]
  lhsBatch := []
  rhsBatch := []
  wf := dot_S512x128_S256x128_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x1024x4096 : Shape := ⟨3, ![2, 1024, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S11008x4096 : Shape := ⟨2, ![11008, 4096]⟩
abbrev S1x1x4096 : Shape := ⟨3, ![1, 1, 4096]⟩
abbrev S2x1024x11008 : Shape := ⟨3, ![2, 1024, 11008]⟩
abbrev S1x1x11008 : Shape := ⟨3, ![1, 1, 11008]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S11008x32x128, .i32⟩
  | .hbm, ⟨2, _⟩ => ⟨S11008x32x1, .f32⟩
  | .hbm, ⟨3, _⟩ => ⟨S11008x32x1, .i32⟩
  | .hbm, ⟨4, _⟩ => ⟨S4096, .f32⟩
  | .hbm, ⟨5, _⟩ => ⟨S11008, .f32⟩
  | .hbm, ⟨6, _⟩ => ⟨S11008x32x128, .f32⟩
  | .hbm, ⟨7, _⟩ => ⟨S11008x32x1, .f32⟩
  | .hbm, ⟨8, _⟩ => ⟨S11008x32x128, .f32⟩
  | .hbm, ⟨9, _⟩ => ⟨S11008x32x128, .f32⟩
  | .hbm, ⟨10, _⟩ => ⟨S11008x32x128, .f32⟩
  | .hbm, ⟨11, _⟩ => ⟨S11008x32x128, .f32⟩
  | .hbm, ⟨12, _⟩ => ⟨S11008x4096, .f32⟩
  | .hbm, ⟨13, _⟩ => ⟨S1x1x4096, .f32⟩
  | .hbm, ⟨14, _⟩ => ⟨S2x1024x4096, .f32⟩
  | .hbm, ⟨15, _⟩ => ⟨S2x1024x4096, .f32⟩
  | .hbm, ⟨16, _⟩ => ⟨S2x1024x11008, .f32⟩
  | .hbm, ⟨17, _⟩ => ⟨S1x1x11008, .f32⟩
  | .hbm, ⟨18, _⟩ => ⟨S2x1024x11008, .f32⟩
  | .hbm, ⟨19, _⟩ => ⟨S2x1024x11008, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096_S1x1x4096_2 : S4096.BroadcastsInDim S1x1x4096 (![2] : Fin 1 → Fin S1x1x4096.rank)
  bcast_S1x1x4096_S2x1024x4096_0_1_2 : S1x1x4096.BroadcastsInDim S2x1024x4096 (![0, 1, 2] : Fin 3 → Fin S2x1024x4096.rank)
  bcast_S11008_S1x1x11008_2 : S11008.BroadcastsInDim S1x1x11008 (![2] : Fin 1 → Fin S1x1x11008.rank)
  bcast_S1x1x11008_S2x1024x11008_0_1_2 : S1x1x11008.BroadcastsInDim S2x1024x11008 (![0, 1, 2] : Fin 3 → Fin S2x1024x11008.rank)
  dot_S2x1024x4096_S11008x4096_S2x1024x11008_2_1_01_0_n_n_wf : DotDims.WF S2x1024x4096 S11008x4096 S2x1024x11008 [2] [1] [0, 1] [0] [] []

variable [Facts₀]

def dot_S2x1024x4096_S11008x4096_S2x1024x11008_2_1_01_0_n_n : DotDims S2x1024x4096 S11008x4096 S2x1024x11008 where
  lhsContracting := [2]
  rhsContracting := [1]
  lhsNonContracting := [0, 1]
  rhsNonContracting := [0]
  lhsBatch := []
  rhsBatch := []
  wf := dot_S2x1024x4096_S11008x4096_S2x1024x11008_2_1_01_0_n_n_wf

class Facts : Prop extends Facts₀ where

variable [Facts]
-- ==== Proof.LibMatmulTransposedRhs.lean ====
/-
  A rows-by-rows matrix product into a zero accumulator, read at an index on the extended reals.

  For `A : [M, K]` and `B : [N, K]`, both contracted on their last axis, the product accumulated into the zero splat
  is, at `(i, j)`, the finite sum `∑ k, A (i, k) * B (j, k)`: the inner product of row `i` of `A` with row `j` of `B`.
  At the exact values no rounding and no chunk order is left, and the contraction index with its one axis is the
  coordinate `k`. Generic in the three extents and the two operand formats; nothing here needs finiteness.
-/
import Idealize.ShloMosaic.PureOps.Ideal
import Idealize.ShloMosaic.PureOps.Ideal.Laws
import Idealize.ShloMosaic.Lib.ValueIdx

noncomputable section

namespace Cert.LibMatmulTransposedRhs

open Idealize.ShloMosaic Idealize.ShloMosaic.ValueIdx

/-- The product `[M, K] × [N, K]ᵀ` into the zero accumulator at `(i, j)` is `∑ k, A (i, k) * B (j, k)`. -/
theorem matmul_zero_apply {M K N : ℕ} {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ k : Fin K, A (ix2 i k) * B (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.LibMatmulTransposedRhs

end
-- ==== Proof.GroupStep.lean ====
/-
  One quantization group of the fused dequantize-and-multiply body.

  The body walks the 32 groups of 128 input columns. For group g it takes the 128 columns of the equalized
  activations, the 128 integer weights of each of the block's 256 output rows, that row's zero point and scale for the
  group, forms the dequantized weights (w - z) * s, rounds both operands to bf16 (the identity on exact values) and
  adds their rows-by-rows product to the running accumulator. `gstep` is that one step as a function of its five
  inputs. Read at row p and
  column q on the extended reals, a step adds to the accumulator the inner product over the group's 128 columns
  of x (p, k) with (w (q, k) - z q) * s q.
-/
import proofs.«159262_j50654844289583_2_alg».proof.Proof.Gen.KernelIdeal.Skeleton
import proofs.«159262_j50654844289583_2_alg».proof.Proof.LibMatmulTransposedRhs
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Idealize.SL.Sem Cert.KernelIdeal Cert.KernelIdeal.Gen

variable {F : FTy → Type} [FloatOps F]

/-- One group's step: the accumulator plus the product of the (rounded) activation columns `xs` with the
    (rounded) dequantized weights `(w - z) * s`, both contracted along their 128 columns. -/
def gstep (xs : FVec F S512x128 .f32) (w : Vec F S256x128 .i32) (s z : Vec F S256x1 .f32) (acc : Vec F S512x256 .f32) :
    FVec F S512x256 .f32 :=
  shapeCast S512x256
    (addf acc
      (matmul dot_S512x128_S256x128_S512x256_1_1_0_0_n_n none
        (truncf .bf16 xs bitsLt_bf16_f32)
        (truncf .bf16
          (mulf
            (subf (sitofp .f32 (shapeCast S256x128 w shapeCasts_S256x128_S256x128))
              (broadcastTo S256x128 (shapeCast S256x1 z shapeCasts_S256x1_S256x1) broadcasts_S256x1_S256x128))
            (broadcastTo S256x128 (shapeCast S256x1 s shapeCasts_S256x1_S256x1) broadcasts_S256x1_S256x128))
          bitsLt_bf16_f32)
        (constant S512x256 .f32 0x00000000#32)))
    shapeCasts_S512x256_S512x256

/-! ## The step at an index, on the extended reals -/

/-- A [256,1] column broadcast along 128 columns reads the column's entry of the row. -/
theorem column_apply (v : FVec Ideal S256x1 .f32) (q : Fin 256) (k : Fin 128) :
    broadcastTo S256x128 v broadcasts_S256x1_S256x128 (ix2 q k) = v (ix2 q (0 : Fin 1)) :=
  broadcastTo_apply v broadcasts_S256x1_S256x128 (ix2 q k) (ix2 q (0 : Fin 1)) (fun a => match a with
    | ⟨0, _⟩ => by show q.val = if (256 : Nat) = 1 then 0 else q.val; rw [if_neg (by decide)]
    | ⟨1, _⟩ => by show 0 = if (1 : Nat) = 1 then 0 else k.val; rw [if_pos rfl])

/-- The step at (p, q): the accumulator's entry plus the group's inner product. -/
theorem gstep_apply (xs : FVec Ideal S512x128 .f32) (w : Vec Ideal S256x128 .i32) (s z : Vec Ideal S256x1 .f32)
    (acc : Vec Ideal S512x256 .f32) (p : Fin 512) (q : Fin 256) :
    gstep xs w s z acc (ix2 p q)
      = acc (ix2 p q) + ∑ k : Fin 128, xs (ix2 p k)
          * ((FloatOps.sitofp .f32 (w (ix2 q k)) - z (ix2 q (0 : Fin 1))) * s (ix2 q (0 : Fin 1))) := by
  unfold gstep
  rw [shapeCast_self]
  refine (addf_apply _ _ _).trans ?_
  refine congrArg (acc (ix2 p q) + ·) ?_
  refine (Cert.LibMatmulTransposedRhs.matmul_zero_apply (M := 512) (K := 128) (N := 256) none _ _ p q).trans ?_
  refine Finset.sum_congr rfl fun k _ => ?_
  show xs (ix2 p k) * ((FloatOps.sitofp .f32 (shapeCast S256x128 w shapeCasts_S256x128_S256x128 (ix2 q k))
      - broadcastTo S256x128 (shapeCast S256x1 z shapeCasts_S256x1_S256x1) broadcasts_S256x1_S256x128 (ix2 q k))
      * broadcastTo S256x128 (shapeCast S256x1 s shapeCasts_S256x1_S256x1) broadcasts_S256x1_S256x128 (ix2 q k)) = _
  rw [column_apply, column_apply, shapeCast_self, shapeCast_self, shapeCast_self]

end Cert.KernelIdeal.Body

end
-- ==== Proof.AccDefs.lean ====
/-
  The vocabulary of the accumulator chain.

  `xeq` is the block of activations divided, column by column, by the equalization row. `accStep off g` is the group
  step for the group whose 128 columns start at column `off` and whose number is `g`: it reads those columns of the
  equalized activations and of the block's weights, and column `g` of the block's scales and zero points. `acc0` is
  the zeroed accumulator.
-/
import proofs.«159262_j50654844289583_2_alg».proof.Proof.GroupStep
import Idealize.ShloMosaic.Lib.Pipeline.Value

noncomputable section

namespace Cert.KernelIdeal.Body

open Idealize.ShloMosaic Idealize.SL.Sem Cert.KernelIdeal Cert.KernelIdeal.Gen

variable {F : FTy → Type} [FloatOps F]

/-- The equalized activations: the block of `x` divided by the equalization row, column by column. -/
def xeq (x0 : Vec F S512x4096 .f32) (x4 : Vec F S1x4096 .f32) : FVec F S512x4096 .f32 := k0_pay4 x0 x4

/-- The step of the group that starts at column `off` and has number `g`. -/
def accStep (off g : Nat) (hs : S512x4096.Slices ![0, off] S512x128)
    (hw : ∀ a, (![0, off] : Fin 2 → Nat) a + S256x128.size a ≤ S256x4096.size a)
    (hg : ∀ a, (![0, g] : Fin 2 → Nat) a + S256x1.size a ≤ S256x32.size a)
    (v9 : FVec F S512x4096 .f32) (x1 : Vec F S256x4096 .i32) (x2 x3 : Vec F S256x32 .f32) (acc : Vec F S512x256 .f32) :
    FVec F S512x256 .f32 :=
  gstep (extractStridedSlice S512x128 ![0, off] v9 hs) (View.ld x1 (Rect.unit ![0, off] S256x128.size hw))
    (View.ld x2 (Rect.unit ![0, g] S256x1.size hg)) (View.ld x3 (Rect.unit ![0, g] S256x1.size hg)) acc

/-- The accumulator as zeroed. -/
def acc0 : FVec F S512x256 .f32 := k0_pay3

end Cert.KernelIdeal.Body

end
-- ==== Proof.StepValue.lean ====
/-
  One group's step at an index, on the extended reals.

  Fix a row p of the activation block and a row q of the weight block. Write X n for the equalized activation
  x (p, n) / eq n, W n for the integer weight (q, n) as a real, and Z g, S g for row q's zero point and scale of group
  g (all indexed by natural numbers, and 0 beyond the arrays, so that a group's terms can be written for a natural
  group number). Group g's contribution is

      groupSum g = ∑ k < 128, X (g * 128 + k) * ((W (g * 128 + k) - Z g) * S g),

  and the step of the group that starts at column `off` adds to the accumulator's entry (p, q) the same sum with
  `off` in the place of `g * 128`. The zeroed accumulator is 0 everywhere, and the equalized activations are the
  quotient entry by entry.
-/
import proofs.«159262_j50654844289583_2_alg».proof.Proof.AccDefs
import Idealize.ShloMosaic.Lib.ValueLayout

noncomputable section

namespace Cert.KernelIdeal.Body

open Idealize.ShloMosaic Idealize.ShloMosaic.ValueIdx Idealize.SL.Sem Cert.KernelIdeal Cert.KernelIdeal.Gen

/-- Column `n` of row `p` of an activation block, 0 beyond the last column. -/
def colX (v9 : FVec Ideal S512x4096 .f32) (p : Fin 512) (n : Nat) : Ideal .f32 :=
  if h : n < 4096 then v9 (ix2 p (⟨n, h⟩ : Fin 4096)) else 0

/-- Column `n` of row `q` of a weight block, as a real; 0 beyond the last column. -/
def colW (x1 : Vec Ideal S256x4096 .i32) (q : Fin 256) (n : Nat) : Ideal .f32 :=
  if h : n < 4096 then FloatOps.sitofp .f32 (x1 (ix2 q (⟨n, h⟩ : Fin 4096))) else 0

/-- Group `g`'s entry of row `q` of a per-group block (scales or zero points), 0 beyond the last group. -/
def colG (x : Vec Ideal S256x32 .f32) (q : Fin 256) (g : Nat) : Ideal .f32 :=
  if h : g < 32 then x (ix2 q (⟨g, h⟩ : Fin 32)) else 0

/-- Group `g`'s contribution to entry (p, q). -/
def groupSum (v9 : FVec Ideal S512x4096 .f32) (x1 : Vec Ideal S256x4096 .i32) (x2 x3 : Vec Ideal S256x32 .f32)
    (p : Fin 512) (q : Fin 256) (g : Nat) : Ideal .f32 :=
  ∑ k : Fin 128, colX v9 p (g * 128 + k.val) * ((colW x1 q (g * 128 + k.val) - colG x3 q g) * colG x2 q g)

/-- The step of the group starting at column `off`, at (p, q). -/
theorem accStep_apply (off g : Nat) (hs : S512x4096.Slices ![0, off] S512x128)
    (hw : ∀ a, (![0, off] : Fin 2 → Nat) a + S256x128.size a ≤ S256x4096.size a)
    (hg : ∀ a, (![0, g] : Fin 2 → Nat) a + S256x1.size a ≤ S256x32.size a)
    (v9 : FVec Ideal S512x4096 .f32) (x1 : Vec Ideal S256x4096 .i32) (x2 x3 : Vec Ideal S256x32 .f32)
    (acc : Vec Ideal S512x256 .f32) (p : Fin 512) (q : Fin 256) :
    accStep off g hs hw hg v9 x1 x2 x3 acc (ix2 p q)
      = acc (ix2 p q) + ∑ k : Fin 128, colX v9 p (off + k.val) * ((colW x1 q (off + k.val) - colG x3 q g) * colG x2 q g) := by
  have h1 : off + 128 ≤ 4096 := hw 1
  have h2 : g + 1 ≤ 32 := hg 1
  have hg' : g < 32 := by omega
  unfold accStep
  refine (gstep_apply _ _ _ _ _ p q).trans ?_
  refine congrArg (acc (ix2 p q) + ·) (Finset.sum_congr rfl fun k _ => ?_)
  have hk : off + k.val < 4096 := by have := k.isLt; omega
  have e1 : extractStridedSlice S512x128 ![0, off] v9 hs (ix2 p k) = v9 (ix2 p (⟨off + k.val, hk⟩ : Fin 4096)) :=
    extractStridedSlice_apply _ v9 hs (ix2 p k) (ix2 p (⟨off + k.val, hk⟩ : Fin 4096)) (fun a => match a with
      | ⟨0, _⟩ => (Nat.zero_add p.val).symm
      | ⟨1, _⟩ => rfl)
  have e2 : View.ld x1 (Rect.unit ![0, off] S256x128.size hw) (ix2 q k) = x1 (ix2 q (⟨off + k.val, hk⟩ : Fin 4096)) :=
    congrArg x1 (funext fun a => Fin.ext (match a with
      | ⟨0, _⟩ => by show 0 + 1 * q.val = q.val; omega
      | ⟨1, _⟩ => by show off + 1 * k.val = off + k.val; omega))
  have e3 : ∀ x : Vec Ideal S256x32 .f32,
      View.ld x (Rect.unit ![0, g] S256x1.size hg) (ix2 q (0 : Fin 1)) = x (ix2 q (⟨g, hg'⟩ : Fin 32)) := fun x =>
    congrArg x (funext fun a => Fin.ext (match a with
      | ⟨0, _⟩ => by show 0 + 1 * q.val = q.val; omega
      | ⟨1, _⟩ => by show g + 1 * 0 = g; omega))
  rw [e1, e2, e3, e3]
  unfold colX colW colG
  rw [dif_pos hk, dif_pos hk, dif_pos hg', dif_pos hg']

/-- The zeroed accumulator is 0 at every entry. -/
theorem acc0_apply (p : Fin 512) (q : Fin 256) : (acc0 : FVec Ideal S512x256 .f32) (ix2 p q) = 0 := by
  unfold acc0 k0_pay3
  rw [shapeCast_self]
  exact Ideal.ofBits_zero_f32

/-- The equalized activations at (p, n): the quotient of the activation by the equalization scale of its column. -/
theorem xeq_apply (x0 : Vec Ideal S512x4096 .f32) (x4 : Vec Ideal S1x4096 .f32) (p : Fin 512) (n : Fin 4096) :
    xeq x0 x4 (ix2 p n) = Ideal.div (x0 (ix2 p n)) (x4 (ix2 (0 : Fin 1) n)) := by
  unfold xeq k0_pay4
  rw [shapeCast_self, shapeCast_self]
  refine (divf_apply _ _ _).trans ?_
  rw [broadcastTo_1b_ab_apply]

end Cert.KernelIdeal.Body

end
-- ==== Proof.AccTable.lean ====
/-
  The accumulator after each group: `acc (g+1)` is the step of group g (columns 128 g … 128 g + 127 of the equalized
  activations and of the weights, column g of the scales and zero points) applied to `acc g`; `acc0` is the zeroed
  accumulator.
-/
import proofs.«159262_j50654844289583_2_alg».proof.Proof.AccDefs

noncomputable section

namespace Cert.KernelIdeal.Body

open Idealize.ShloMosaic Idealize.SL.Sem Cert.KernelIdeal Cert.KernelIdeal.Gen

variable {F : FTy → Type} [FloatOps F]

def acc1 (x0 : Vec F S512x4096 .f32) (x1 : Vec F S256x4096 .i32) (x2 x3 : Vec F S256x32 .f32) (x4 : Vec F S1x4096 .f32) : FVec F S512x256 .f32 :=
  accStep 0 0 slices_S512x4096_o0_0_S512x128 inb_S256x4096_S256x128_0_0 inb_S256x32_S256x1_0_0 (xeq x0 x4) x1 x2 x3 acc0
def acc2 (x0 : Vec F S512x4096 .f32) (x1 : Vec F S256x4096 .i32) (x2 x3 : Vec F S256x32 .f32) (x4 : Vec F S1x4096 .f32) : FVec F S512x256 .f32 :=
  accStep 128 1 slices_S512x4096_o0_128_S512x128 inb_S256x4096_S256x128_0_128 inb_S256x32_S256x1_0_1 (xeq x0 x4) x1 x2 x3 (acc1 x0 x1 x2 x3 x4)
def acc3 (x0 : Vec F S512x4096 .f32) (x1 : Vec F S256x4096 .i32) (x2 x3 : Vec F S256x32 .f32) (x4 : Vec F S1x4096 .f32) : FVec F S512x256 .f32 :=
  accStep 256 2 slices_S512x4096_o0_256_S512x128 inb_S256x4096_S256x128_0_256 inb_S256x32_S256x1_0_2 (xeq x0 x4) x1 x2 x3 (acc2 x0 x1 x2 x3 x4)
def acc4 (x0 : Vec F S512x4096 .f32) (x1 : Vec F S256x4096 .i32) (x2 x3 : Vec F S256x32 .f32) (x4 : Vec F S1x4096 .f32) : FVec F S512x256 .f32 :=
  accStep 384 3 slices_S512x4096_o0_384_S512x128 inb_S256x4096_S256x128_0_384 inb_S256x32_S256x1_0_3 (xeq x0 x4) x1 x2 x3 (acc3 x0 x1 x2 x3 x4)
def acc5 (x0 : Vec F S512x4096 .f32) (x1 : Vec F S256x4096 .i32) (x2 x3 : Vec F S256x32 .f32) (x4 : Vec F S1x4096 .f32) : FVec F S512x256 .f32 :=
  accStep 512 4 slices_S512x4096_o0_512_S512x128 inb_S256x4096_S256x128_0_512 inb_S256x32_S256x1_0_4 (xeq x0 x4) x1 x2 x3 (acc4 x0 x1 x2 x3 x4)
def acc6 (x0 : Vec F S512x4096 .f32) (x1 : Vec F S256x4096 .i32) (x2 x3 : Vec F S256x32 .f32) (x4 : Vec F S1x4096 .f32) : FVec F S512x256 .f32 :=
  accStep 640 5 slices_S512x4096_o0_640_S512x128 inb_S256x4096_S256x128_0_640 inb_S256x32_S256x1_0_5 (xeq x0 x4) x1 x2 x3 (acc5 x0 x1 x2 x3 x4)
def acc7 (x0 : Vec F S512x4096 .f32) (x1 : Vec F S256x4096 .i32) (x2 x3 : Vec F S256x32 .f32) (x4 : Vec F S1x4096 .f32) : FVec F S512x256 .f32 :=
  accStep 768 6 slices_S512x4096_o0_768_S512x128 inb_S256x4096_S256x128_0_768 inb_S256x32_S256x1_0_6 (xeq x0 x4) x1 x2 x3 (acc6 x0 x1 x2 x3 x4)
def acc8 (x0 : Vec F S512x4096 .f32) (x1 : Vec F S256x4096 .i32) (x2 x3 : Vec F S256x32 .f32) (x4 : Vec F S1x4096 .f32) : FVec F S512x256 .f32 :=
  accStep 896 7 slices_S512x4096_o0_896_S512x128 inb_S256x4096_S256x128_0_896 inb_S256x32_S256x1_0_7 (xeq x0 x4) x1 x2 x3 (acc7 x0 x1 x2 x3 x4)
def acc9 (x0 : Vec F S512x4096 .f32) (x1 : Vec F S256x4096 .i32) (x2 x3 : Vec F S256x32 .f32) (x4 : Vec F S1x4096 .f32) : FVec F S512x256 .f32 :=
  accStep 1024 8 slices_S512x4096_o0_1024_S512x128 inb_S256x4096_S256x128_0_1024 inb_S256x32_S256x1_0_8 (xeq x0 x4) x1 x2 x3 (acc8 x0 x1 x2 x3 x4)
def acc10 (x0 : Vec F S512x4096 .f32) (x1 : Vec F S256x4096 .i32) (x2 x3 : Vec F S256x32 .f32) (x4 : Vec F S1x4096 .f32) : FVec F S512x256 .f32 :=
  accStep 1152 9 slices_S512x4096_o0_1152_S512x128 inb_S256x4096_S256x128_0_1152 inb_S256x32_S256x1_0_9 (xeq x0 x4) x1 x2 x3 (acc9 x0 x1 x2 x3 x4)
def acc11 (x0 : Vec F S512x4096 .f32) (x1 : Vec F S256x4096 .i32) (x2 x3 : Vec F S256x32 .f32) (x4 : Vec F S1x4096 .f32) : FVec F S512x256 .f32 :=
  accStep 1280 10 slices_S512x4096_o0_1280_S512x128 inb_S256x4096_S256x128_0_1280 inb_S256x32_S256x1_0_10 (xeq x0 x4) x1 x2 x3 (acc10 x0 x1 x2 x3 x4)
def acc12 (x0 : Vec F S512x4096 .f32) (x1 : Vec F S256x4096 .i32) (x2 x3 : Vec F S256x32 .f32) (x4 : Vec F S1x4096 .f32) : FVec F S512x256 .f32 :=
  accStep 1408 11 slices_S512x4096_o0_1408_S512x128 inb_S256x4096_S256x128_0_1408 inb_S256x32_S256x1_0_11 (xeq x0 x4) x1 x2 x3 (acc11 x0 x1 x2 x3 x4)
def acc13 (x0 : Vec F S512x4096 .f32) (x1 : Vec F S256x4096 .i32) (x2 x3 : Vec F S256x32 .f32) (x4 : Vec F S1x4096 .f32) : FVec F S512x256 .f32 :=
  accStep 1536 12 slices_S512x4096_o0_1536_S512x128 inb_S256x4096_S256x128_0_1536 inb_S256x32_S256x1_0_12 (xeq x0 x4) x1 x2 x3 (acc12 x0 x1 x2 x3 x4)
def acc14 (x0 : Vec F S512x4096 .f32) (x1 : Vec F S256x4096 .i32) (x2 x3 : Vec F S256x32 .f32) (x4 : Vec F S1x4096 .f32) : FVec F S512x256 .f32 :=
  accStep 1664 13 slices_S512x4096_o0_1664_S512x128 inb_S256x4096_S256x128_0_1664 inb_S256x32_S256x1_0_13 (xeq x0 x4) x1 x2 x3 (acc13 x0 x1 x2 x3 x4)
def acc15 (x0 : Vec F S512x4096 .f32) (x1 : Vec F S256x4096 .i32) (x2 x3 : Vec F S256x32 .f32) (x4 : Vec F S1x4096 .f32) : FVec F S512x256 .f32 :=
  accStep 1792 14 slices_S512x4096_o0_1792_S512x128 inb_S256x4096_S256x128_0_1792 inb_S256x32_S256x1_0_14 (xeq x0 x4) x1 x2 x3 (acc14 x0 x1 x2 x3 x4)
def acc16 (x0 : Vec F S512x4096 .f32) (x1 : Vec F S256x4096 .i32) (x2 x3 : Vec F S256x32 .f32) (x4 : Vec F S1x4096 .f32) : FVec F S512x256 .f32 :=
  accStep 1920 15 slices_S512x4096_o0_1920_S512x128 inb_S256x4096_S256x128_0_1920 inb_S256x32_S256x1_0_15 (xeq x0 x4) x1 x2 x3 (acc15 x0 x1 x2 x3 x4)
def acc17 (x0 : Vec F S512x4096 .f32) (x1 : Vec F S256x4096 .i32) (x2 x3 : Vec F S256x32 .f32) (x4 : Vec F S1x4096 .f32) : FVec F S512x256 .f32 :=
  accStep 2048 16 slices_S512x4096_o0_2048_S512x128 inb_S256x4096_S256x128_0_2048 inb_S256x32_S256x1_0_16 (xeq x0 x4) x1 x2 x3 (acc16 x0 x1 x2 x3 x4)
def acc18 (x0 : Vec F S512x4096 .f32) (x1 : Vec F S256x4096 .i32) (x2 x3 : Vec F S256x32 .f32) (x4 : Vec F S1x4096 .f32) : FVec F S512x256 .f32 :=
  accStep 2176 17 slices_S512x4096_o0_2176_S512x128 inb_S256x4096_S256x128_0_2176 inb_S256x32_S256x1_0_17 (xeq x0 x4) x1 x2 x3 (acc17 x0 x1 x2 x3 x4)
def acc19 (x0 : Vec F S512x4096 .f32) (x1 : Vec F S256x4096 .i32) (x2 x3 : Vec F S256x32 .f32) (x4 : Vec F S1x4096 .f32) : FVec F S512x256 .f32 :=
  accStep 2304 18 slices_S512x4096_o0_2304_S512x128 inb_S256x4096_S256x128_0_2304 inb_S256x32_S256x1_0_18 (xeq x0 x4) x1 x2 x3 (acc18 x0 x1 x2 x3 x4)
def acc20 (x0 : Vec F S512x4096 .f32) (x1 : Vec F S256x4096 .i32) (x2 x3 : Vec F S256x32 .f32) (x4 : Vec F S1x4096 .f32) : FVec F S512x256 .f32 :=
  accStep 2432 19 slices_S512x4096_o0_2432_S512x128 inb_S256x4096_S256x128_0_2432 inb_S256x32_S256x1_0_19 (xeq x0 x4) x1 x2 x3 (acc19 x0 x1 x2 x3 x4)
def acc21 (x0 : Vec F S512x4096 .f32) (x1 : Vec F S256x4096 .i32) (x2 x3 : Vec F S256x32 .f32) (x4 : Vec F S1x4096 .f32) : FVec F S512x256 .f32 :=
  accStep 2560 20 slices_S512x4096_o0_2560_S512x128 inb_S256x4096_S256x128_0_2560 inb_S256x32_S256x1_0_20 (xeq x0 x4) x1 x2 x3 (acc20 x0 x1 x2 x3 x4)
def acc22 (x0 : Vec F S512x4096 .f32) (x1 : Vec F S256x4096 .i32) (x2 x3 : Vec F S256x32 .f32) (x4 : Vec F S1x4096 .f32) : FVec F S512x256 .f32 :=
  accStep 2688 21 slices_S512x4096_o0_2688_S512x128 inb_S256x4096_S256x128_0_2688 inb_S256x32_S256x1_0_21 (xeq x0 x4) x1 x2 x3 (acc21 x0 x1 x2 x3 x4)
def acc23 (x0 : Vec F S512x4096 .f32) (x1 : Vec F S256x4096 .i32) (x2 x3 : Vec F S256x32 .f32) (x4 : Vec F S1x4096 .f32) : FVec F S512x256 .f32 :=
  accStep 2816 22 slices_S512x4096_o0_2816_S512x128 inb_S256x4096_S256x128_0_2816 inb_S256x32_S256x1_0_22 (xeq x0 x4) x1 x2 x3 (acc22 x0 x1 x2 x3 x4)
def acc24 (x0 : Vec F S512x4096 .f32) (x1 : Vec F S256x4096 .i32) (x2 x3 : Vec F S256x32 .f32) (x4 : Vec F S1x4096 .f32) : FVec F S512x256 .f32 :=
  accStep 2944 23 slices_S512x4096_o0_2944_S512x128 inb_S256x4096_S256x128_0_2944 inb_S256x32_S256x1_0_23 (xeq x0 x4) x1 x2 x3 (acc23 x0 x1 x2 x3 x4)
def acc25 (x0 : Vec F S512x4096 .f32) (x1 : Vec F S256x4096 .i32) (x2 x3 : Vec F S256x32 .f32) (x4 : Vec F S1x4096 .f32) : FVec F S512x256 .f32 :=
  accStep 3072 24 slices_S512x4096_o0_3072_S512x128 inb_S256x4096_S256x128_0_3072 inb_S256x32_S256x1_0_24 (xeq x0 x4) x1 x2 x3 (acc24 x0 x1 x2 x3 x4)
def acc26 (x0 : Vec F S512x4096 .f32) (x1 : Vec F S256x4096 .i32) (x2 x3 : Vec F S256x32 .f32) (x4 : Vec F S1x4096 .f32) : FVec F S512x256 .f32 :=
  accStep 3200 25 slices_S512x4096_o0_3200_S512x128 inb_S256x4096_S256x128_0_3200 inb_S256x32_S256x1_0_25 (xeq x0 x4) x1 x2 x3 (acc25 x0 x1 x2 x3 x4)
def acc27 (x0 : Vec F S512x4096 .f32) (x1 : Vec F S256x4096 .i32) (x2 x3 : Vec F S256x32 .f32) (x4 : Vec F S1x4096 .f32) : FVec F S512x256 .f32 :=
  accStep 3328 26 slices_S512x4096_o0_3328_S512x128 inb_S256x4096_S256x128_0_3328 inb_S256x32_S256x1_0_26 (xeq x0 x4) x1 x2 x3 (acc26 x0 x1 x2 x3 x4)
def acc28 (x0 : Vec F S512x4096 .f32) (x1 : Vec F S256x4096 .i32) (x2 x3 : Vec F S256x32 .f32) (x4 : Vec F S1x4096 .f32) : FVec F S512x256 .f32 :=
  accStep 3456 27 slices_S512x4096_o0_3456_S512x128 inb_S256x4096_S256x128_0_3456 inb_S256x32_S256x1_0_27 (xeq x0 x4) x1 x2 x3 (acc27 x0 x1 x2 x3 x4)
def acc29 (x0 : Vec F S512x4096 .f32) (x1 : Vec F S256x4096 .i32) (x2 x3 : Vec F S256x32 .f32) (x4 : Vec F S1x4096 .f32) : FVec F S512x256 .f32 :=
  accStep 3584 28 slices_S512x4096_o0_3584_S512x128 inb_S256x4096_S256x128_0_3584 inb_S256x32_S256x1_0_28 (xeq x0 x4) x1 x2 x3 (acc28 x0 x1 x2 x3 x4)
def acc30 (x0 : Vec F S512x4096 .f32) (x1 : Vec F S256x4096 .i32) (x2 x3 : Vec F S256x32 .f32) (x4 : Vec F S1x4096 .f32) : FVec F S512x256 .f32 :=
  accStep 3712 29 slices_S512x4096_o0_3712_S512x128 inb_S256x4096_S256x128_0_3712 inb_S256x32_S256x1_0_29 (xeq x0 x4) x1 x2 x3 (acc29 x0 x1 x2 x3 x4)
def acc31 (x0 : Vec F S512x4096 .f32) (x1 : Vec F S256x4096 .i32) (x2 x3 : Vec F S256x32 .f32) (x4 : Vec F S1x4096 .f32) : FVec F S512x256 .f32 :=
  accStep 3840 30 slices_S512x4096_o0_3840_S512x128 inb_S256x4096_S256x128_0_3840 inb_S256x32_S256x1_0_30 (xeq x0 x4) x1 x2 x3 (acc30 x0 x1 x2 x3 x4)
def acc32 (x0 : Vec F S512x4096 .f32) (x1 : Vec F S256x4096 .i32) (x2 x3 : Vec F S256x32 .f32) (x4 : Vec F S1x4096 .f32) : FVec F S512x256 .f32 :=
  accStep 3968 31 slices_S512x4096_o0_3968_S512x128 inb_S256x4096_S256x128_0_3968 inb_S256x32_S256x1_0_31 (xeq x0 x4) x1 x2 x3 (acc31 x0 x1 x2 x3 x4)

end Cert.KernelIdeal.Body

end
-- ==== Proof.StepTable.lean ====
/-
  Each accumulator at row p and column q, on the extended reals: the one before it plus the group's inner product
  (the step lemma at the group's literal offset 128 g, which is g * 128).
-/
import proofs.«159262_j50654844289583_2_alg».proof.Proof.StepValue
import proofs.«159262_j50654844289583_2_alg».proof.Proof.AccTable

noncomputable section

namespace Cert.KernelIdeal.Body

open Idealize.ShloMosaic Idealize.ShloMosaic.ValueIdx Idealize.SL.Sem Cert.KernelIdeal Cert.KernelIdeal.Gen

theorem acc1_apply (x0 : Vec Ideal S512x4096 .f32) (x1 : Vec Ideal S256x4096 .i32) (x2 x3 : Vec Ideal S256x32 .f32) (x4 : Vec Ideal S1x4096 .f32) (p : Fin 512) (q : Fin 256) :
    acc1 x0 x1 x2 x3 x4 (ix2 p q) = (acc0) (ix2 p q) + groupSum (xeq x0 x4) x1 x2 x3 p q 0 :=
  accStep_apply 0 0 _ _ _ _ _ _ _ _ p q
theorem acc2_apply (x0 : Vec Ideal S512x4096 .f32) (x1 : Vec Ideal S256x4096 .i32) (x2 x3 : Vec Ideal S256x32 .f32) (x4 : Vec Ideal S1x4096 .f32) (p : Fin 512) (q : Fin 256) :
    acc2 x0 x1 x2 x3 x4 (ix2 p q) = (acc1 x0 x1 x2 x3 x4) (ix2 p q) + groupSum (xeq x0 x4) x1 x2 x3 p q 1 :=
  accStep_apply 128 1 _ _ _ _ _ _ _ _ p q
theorem acc3_apply (x0 : Vec Ideal S512x4096 .f32) (x1 : Vec Ideal S256x4096 .i32) (x2 x3 : Vec Ideal S256x32 .f32) (x4 : Vec Ideal S1x4096 .f32) (p : Fin 512) (q : Fin 256) :
    acc3 x0 x1 x2 x3 x4 (ix2 p q) = (acc2 x0 x1 x2 x3 x4) (ix2 p q) + groupSum (xeq x0 x4) x1 x2 x3 p q 2 :=
  accStep_apply 256 2 _ _ _ _ _ _ _ _ p q
theorem acc4_apply (x0 : Vec Ideal S512x4096 .f32) (x1 : Vec Ideal S256x4096 .i32) (x2 x3 : Vec Ideal S256x32 .f32) (x4 : Vec Ideal S1x4096 .f32) (p : Fin 512) (q : Fin 256) :
    acc4 x0 x1 x2 x3 x4 (ix2 p q) = (acc3 x0 x1 x2 x3 x4) (ix2 p q) + groupSum (xeq x0 x4) x1 x2 x3 p q 3 :=
  accStep_apply 384 3 _ _ _ _ _ _ _ _ p q
theorem acc5_apply (x0 : Vec Ideal S512x4096 .f32) (x1 : Vec Ideal S256x4096 .i32) (x2 x3 : Vec Ideal S256x32 .f32) (x4 : Vec Ideal S1x4096 .f32) (p : Fin 512) (q : Fin 256) :
    acc5 x0 x1 x2 x3 x4 (ix2 p q) = (acc4 x0 x1 x2 x3 x4) (ix2 p q) + groupSum (xeq x0 x4) x1 x2 x3 p q 4 :=
  accStep_apply 512 4 _ _ _ _ _ _ _ _ p q
theorem acc6_apply (x0 : Vec Ideal S512x4096 .f32) (x1 : Vec Ideal S256x4096 .i32) (x2 x3 : Vec Ideal S256x32 .f32) (x4 : Vec Ideal S1x4096 .f32) (p : Fin 512) (q : Fin 256) :
    acc6 x0 x1 x2 x3 x4 (ix2 p q) = (acc5 x0 x1 x2 x3 x4) (ix2 p q) + groupSum (xeq x0 x4) x1 x2 x3 p q 5 :=
  accStep_apply 640 5 _ _ _ _ _ _ _ _ p q
theorem acc7_apply (x0 : Vec Ideal S512x4096 .f32) (x1 : Vec Ideal S256x4096 .i32) (x2 x3 : Vec Ideal S256x32 .f32) (x4 : Vec Ideal S1x4096 .f32) (p : Fin 512) (q : Fin 256) :
    acc7 x0 x1 x2 x3 x4 (ix2 p q) = (acc6 x0 x1 x2 x3 x4) (ix2 p q) + groupSum (xeq x0 x4) x1 x2 x3 p q 6 :=
  accStep_apply 768 6 _ _ _ _ _ _ _ _ p q
theorem acc8_apply (x0 : Vec Ideal S512x4096 .f32) (x1 : Vec Ideal S256x4096 .i32) (x2 x3 : Vec Ideal S256x32 .f32) (x4 : Vec Ideal S1x4096 .f32) (p : Fin 512) (q : Fin 256) :
    acc8 x0 x1 x2 x3 x4 (ix2 p q) = (acc7 x0 x1 x2 x3 x4) (ix2 p q) + groupSum (xeq x0 x4) x1 x2 x3 p q 7 :=
  accStep_apply 896 7 _ _ _ _ _ _ _ _ p q
theorem acc9_apply (x0 : Vec Ideal S512x4096 .f32) (x1 : Vec Ideal S256x4096 .i32) (x2 x3 : Vec Ideal S256x32 .f32) (x4 : Vec Ideal S1x4096 .f32) (p : Fin 512) (q : Fin 256) :
    acc9 x0 x1 x2 x3 x4 (ix2 p q) = (acc8 x0 x1 x2 x3 x4) (ix2 p q) + groupSum (xeq x0 x4) x1 x2 x3 p q 8 :=
  accStep_apply 1024 8 _ _ _ _ _ _ _ _ p q
theorem acc10_apply (x0 : Vec Ideal S512x4096 .f32) (x1 : Vec Ideal S256x4096 .i32) (x2 x3 : Vec Ideal S256x32 .f32) (x4 : Vec Ideal S1x4096 .f32) (p : Fin 512) (q : Fin 256) :
    acc10 x0 x1 x2 x3 x4 (ix2 p q) = (acc9 x0 x1 x2 x3 x4) (ix2 p q) + groupSum (xeq x0 x4) x1 x2 x3 p q 9 :=
  accStep_apply 1152 9 _ _ _ _ _ _ _ _ p q
theorem acc11_apply (x0 : Vec Ideal S512x4096 .f32) (x1 : Vec Ideal S256x4096 .i32) (x2 x3 : Vec Ideal S256x32 .f32) (x4 : Vec Ideal S1x4096 .f32) (p : Fin 512) (q : Fin 256) :
    acc11 x0 x1 x2 x3 x4 (ix2 p q) = (acc10 x0 x1 x2 x3 x4) (ix2 p q) + groupSum (xeq x0 x4) x1 x2 x3 p q 10 :=
  accStep_apply 1280 10 _ _ _ _ _ _ _ _ p q
theorem acc12_apply (x0 : Vec Ideal S512x4096 .f32) (x1 : Vec Ideal S256x4096 .i32) (x2 x3 : Vec Ideal S256x32 .f32) (x4 : Vec Ideal S1x4096 .f32) (p : Fin 512) (q : Fin 256) :
    acc12 x0 x1 x2 x3 x4 (ix2 p q) = (acc11 x0 x1 x2 x3 x4) (ix2 p q) + groupSum (xeq x0 x4) x1 x2 x3 p q 11 :=
  accStep_apply 1408 11 _ _ _ _ _ _ _ _ p q
theorem acc13_apply (x0 : Vec Ideal S512x4096 .f32) (x1 : Vec Ideal S256x4096 .i32) (x2 x3 : Vec Ideal S256x32 .f32) (x4 : Vec Ideal S1x4096 .f32) (p : Fin 512) (q : Fin 256) :
    acc13 x0 x1 x2 x3 x4 (ix2 p q) = (acc12 x0 x1 x2 x3 x4) (ix2 p q) + groupSum (xeq x0 x4) x1 x2 x3 p q 12 :=
  accStep_apply 1536 12 _ _ _ _ _ _ _ _ p q
theorem acc14_apply (x0 : Vec Ideal S512x4096 .f32) (x1 : Vec Ideal S256x4096 .i32) (x2 x3 : Vec Ideal S256x32 .f32) (x4 : Vec Ideal S1x4096 .f32) (p : Fin 512) (q : Fin 256) :
    acc14 x0 x1 x2 x3 x4 (ix2 p q) = (acc13 x0 x1 x2 x3 x4) (ix2 p q) + groupSum (xeq x0 x4) x1 x2 x3 p q 13 :=
  accStep_apply 1664 13 _ _ _ _ _ _ _ _ p q
theorem acc15_apply (x0 : Vec Ideal S512x4096 .f32) (x1 : Vec Ideal S256x4096 .i32) (x2 x3 : Vec Ideal S256x32 .f32) (x4 : Vec Ideal S1x4096 .f32) (p : Fin 512) (q : Fin 256) :
    acc15 x0 x1 x2 x3 x4 (ix2 p q) = (acc14 x0 x1 x2 x3 x4) (ix2 p q) + groupSum (xeq x0 x4) x1 x2 x3 p q 14 :=
  accStep_apply 1792 14 _ _ _ _ _ _ _ _ p q
theorem acc16_apply (x0 : Vec Ideal S512x4096 .f32) (x1 : Vec Ideal S256x4096 .i32) (x2 x3 : Vec Ideal S256x32 .f32) (x4 : Vec Ideal S1x4096 .f32) (p : Fin 512) (q : Fin 256) :
    acc16 x0 x1 x2 x3 x4 (ix2 p q) = (acc15 x0 x1 x2 x3 x4) (ix2 p q) + groupSum (xeq x0 x4) x1 x2 x3 p q 15 :=
  accStep_apply 1920 15 _ _ _ _ _ _ _ _ p q
theorem acc17_apply (x0 : Vec Ideal S512x4096 .f32) (x1 : Vec Ideal S256x4096 .i32) (x2 x3 : Vec Ideal S256x32 .f32) (x4 : Vec Ideal S1x4096 .f32) (p : Fin 512) (q : Fin 256) :
    acc17 x0 x1 x2 x3 x4 (ix2 p q) = (acc16 x0 x1 x2 x3 x4) (ix2 p q) + groupSum (xeq x0 x4) x1 x2 x3 p q 16 :=
  accStep_apply 2048 16 _ _ _ _ _ _ _ _ p q
theorem acc18_apply (x0 : Vec Ideal S512x4096 .f32) (x1 : Vec Ideal S256x4096 .i32) (x2 x3 : Vec Ideal S256x32 .f32) (x4 : Vec Ideal S1x4096 .f32) (p : Fin 512) (q : Fin 256) :
    acc18 x0 x1 x2 x3 x4 (ix2 p q) = (acc17 x0 x1 x2 x3 x4) (ix2 p q) + groupSum (xeq x0 x4) x1 x2 x3 p q 17 :=
  accStep_apply 2176 17 _ _ _ _ _ _ _ _ p q
theorem acc19_apply (x0 : Vec Ideal S512x4096 .f32) (x1 : Vec Ideal S256x4096 .i32) (x2 x3 : Vec Ideal S256x32 .f32) (x4 : Vec Ideal S1x4096 .f32) (p : Fin 512) (q : Fin 256) :
    acc19 x0 x1 x2 x3 x4 (ix2 p q) = (acc18 x0 x1 x2 x3 x4) (ix2 p q) + groupSum (xeq x0 x4) x1 x2 x3 p q 18 :=
  accStep_apply 2304 18 _ _ _ _ _ _ _ _ p q
theorem acc20_apply (x0 : Vec Ideal S512x4096 .f32) (x1 : Vec Ideal S256x4096 .i32) (x2 x3 : Vec Ideal S256x32 .f32) (x4 : Vec Ideal S1x4096 .f32) (p : Fin 512) (q : Fin 256) :
    acc20 x0 x1 x2 x3 x4 (ix2 p q) = (acc19 x0 x1 x2 x3 x4) (ix2 p q) + groupSum (xeq x0 x4) x1 x2 x3 p q 19 :=
  accStep_apply 2432 19 _ _ _ _ _ _ _ _ p q
theorem acc21_apply (x0 : Vec Ideal S512x4096 .f32) (x1 : Vec Ideal S256x4096 .i32) (x2 x3 : Vec Ideal S256x32 .f32) (x4 : Vec Ideal S1x4096 .f32) (p : Fin 512) (q : Fin 256) :
    acc21 x0 x1 x2 x3 x4 (ix2 p q) = (acc20 x0 x1 x2 x3 x4) (ix2 p q) + groupSum (xeq x0 x4) x1 x2 x3 p q 20 :=
  accStep_apply 2560 20 _ _ _ _ _ _ _ _ p q
theorem acc22_apply (x0 : Vec Ideal S512x4096 .f32) (x1 : Vec Ideal S256x4096 .i32) (x2 x3 : Vec Ideal S256x32 .f32) (x4 : Vec Ideal S1x4096 .f32) (p : Fin 512) (q : Fin 256) :
    acc22 x0 x1 x2 x3 x4 (ix2 p q) = (acc21 x0 x1 x2 x3 x4) (ix2 p q) + groupSum (xeq x0 x4) x1 x2 x3 p q 21 :=
  accStep_apply 2688 21 _ _ _ _ _ _ _ _ p q
theorem acc23_apply (x0 : Vec Ideal S512x4096 .f32) (x1 : Vec Ideal S256x4096 .i32) (x2 x3 : Vec Ideal S256x32 .f32) (x4 : Vec Ideal S1x4096 .f32) (p : Fin 512) (q : Fin 256) :
    acc23 x0 x1 x2 x3 x4 (ix2 p q) = (acc22 x0 x1 x2 x3 x4) (ix2 p q) + groupSum (xeq x0 x4) x1 x2 x3 p q 22 :=
  accStep_apply 2816 22 _ _ _ _ _ _ _ _ p q
theorem acc24_apply (x0 : Vec Ideal S512x4096 .f32) (x1 : Vec Ideal S256x4096 .i32) (x2 x3 : Vec Ideal S256x32 .f32) (x4 : Vec Ideal S1x4096 .f32) (p : Fin 512) (q : Fin 256) :
    acc24 x0 x1 x2 x3 x4 (ix2 p q) = (acc23 x0 x1 x2 x3 x4) (ix2 p q) + groupSum (xeq x0 x4) x1 x2 x3 p q 23 :=
  accStep_apply 2944 23 _ _ _ _ _ _ _ _ p q
theorem acc25_apply (x0 : Vec Ideal S512x4096 .f32) (x1 : Vec Ideal S256x4096 .i32) (x2 x3 : Vec Ideal S256x32 .f32) (x4 : Vec Ideal S1x4096 .f32) (p : Fin 512) (q : Fin 256) :
    acc25 x0 x1 x2 x3 x4 (ix2 p q) = (acc24 x0 x1 x2 x3 x4) (ix2 p q) + groupSum (xeq x0 x4) x1 x2 x3 p q 24 :=
  accStep_apply 3072 24 _ _ _ _ _ _ _ _ p q
theorem acc26_apply (x0 : Vec Ideal S512x4096 .f32) (x1 : Vec Ideal S256x4096 .i32) (x2 x3 : Vec Ideal S256x32 .f32) (x4 : Vec Ideal S1x4096 .f32) (p : Fin 512) (q : Fin 256) :
    acc26 x0 x1 x2 x3 x4 (ix2 p q) = (acc25 x0 x1 x2 x3 x4) (ix2 p q) + groupSum (xeq x0 x4) x1 x2 x3 p q 25 :=
  accStep_apply 3200 25 _ _ _ _ _ _ _ _ p q
theorem acc27_apply (x0 : Vec Ideal S512x4096 .f32) (x1 : Vec Ideal S256x4096 .i32) (x2 x3 : Vec Ideal S256x32 .f32) (x4 : Vec Ideal S1x4096 .f32) (p : Fin 512) (q : Fin 256) :
    acc27 x0 x1 x2 x3 x4 (ix2 p q) = (acc26 x0 x1 x2 x3 x4) (ix2 p q) + groupSum (xeq x0 x4) x1 x2 x3 p q 26 :=
  accStep_apply 3328 26 _ _ _ _ _ _ _ _ p q
theorem acc28_apply (x0 : Vec Ideal S512x4096 .f32) (x1 : Vec Ideal S256x4096 .i32) (x2 x3 : Vec Ideal S256x32 .f32) (x4 : Vec Ideal S1x4096 .f32) (p : Fin 512) (q : Fin 256) :
    acc28 x0 x1 x2 x3 x4 (ix2 p q) = (acc27 x0 x1 x2 x3 x4) (ix2 p q) + groupSum (xeq x0 x4) x1 x2 x3 p q 27 :=
  accStep_apply 3456 27 _ _ _ _ _ _ _ _ p q
theorem acc29_apply (x0 : Vec Ideal S512x4096 .f32) (x1 : Vec Ideal S256x4096 .i32) (x2 x3 : Vec Ideal S256x32 .f32) (x4 : Vec Ideal S1x4096 .f32) (p : Fin 512) (q : Fin 256) :
    acc29 x0 x1 x2 x3 x4 (ix2 p q) = (acc28 x0 x1 x2 x3 x4) (ix2 p q) + groupSum (xeq x0 x4) x1 x2 x3 p q 28 :=
  accStep_apply 3584 28 _ _ _ _ _ _ _ _ p q
theorem acc30_apply (x0 : Vec Ideal S512x4096 .f32) (x1 : Vec Ideal S256x4096 .i32) (x2 x3 : Vec Ideal S256x32 .f32) (x4 : Vec Ideal S1x4096 .f32) (p : Fin 512) (q : Fin 256) :
    acc30 x0 x1 x2 x3 x4 (ix2 p q) = (acc29 x0 x1 x2 x3 x4) (ix2 p q) + groupSum (xeq x0 x4) x1 x2 x3 p q 29 :=
  accStep_apply 3712 29 _ _ _ _ _ _ _ _ p q
theorem acc31_apply (x0 : Vec Ideal S512x4096 .f32) (x1 : Vec Ideal S256x4096 .i32) (x2 x3 : Vec Ideal S256x32 .f32) (x4 : Vec Ideal S1x4096 .f32) (p : Fin 512) (q : Fin 256) :
    acc31 x0 x1 x2 x3 x4 (ix2 p q) = (acc30 x0 x1 x2 x3 x4) (ix2 p q) + groupSum (xeq x0 x4) x1 x2 x3 p q 30 :=
  accStep_apply 3840 30 _ _ _ _ _ _ _ _ p q
theorem acc32_apply (x0 : Vec Ideal S512x4096 .f32) (x1 : Vec Ideal S256x4096 .i32) (x2 x3 : Vec Ideal S256x32 .f32) (x4 : Vec Ideal S1x4096 .f32) (p : Fin 512) (q : Fin 256) :
    acc32 x0 x1 x2 x3 x4 (ix2 p q) = (acc31 x0 x1 x2 x3 x4) (ix2 p q) + groupSum (xeq x0 x4) x1 x2 x3 p q 31 :=
  accStep_apply 3968 31 _ _ _ _ _ _ _ _ p q

end Cert.KernelIdeal.Body

end
-- ==== Proof.GroupTable.lean ====
/-
  Each group's stored accumulator is the group step of that group's slices.

  The body's text for one group is the same for all 32 groups, but its intermediate values are named in pieces that
  differ from group to group (the activation slice, the converted weights, the dequantized weights or their
  rounding may each be a named value of their own). Whatever the cut, composing the pieces gives the step
  `gstep` of the group's activation columns, integer weights, scale column, zero-point column and accumulator:
  both sides unfold to the same operations in the same order.
-/
import proofs.«159262_j50654844289583_2_alg».proof.Proof.GroupStep

noncomputable section

namespace Cert.KernelIdeal.Body

open Idealize.ShloMosaic Idealize.SL.Sem Cert.KernelIdeal Cert.KernelIdeal.Gen

variable {F : FTy → Type} [FloatOps F]

theorem group0_eq (a0 : Vec F S512x4096 .f32) (a4 : Vec F S1x4096 .f32) (w : Vec F S256x128 .i32) (s z : Vec F S256x1 .f32) (acc : Vec F S512x256 .f32) :
    k0_pay5 a0 a4 w s z acc
      = gstep (extractStridedSlice S512x128 ![0, 0] (k0_pay4 a0 a4) slices_S512x4096_o0_0_S512x128) w s z acc := rfl
theorem group1_eq (a0 : Vec F S512x4096 .f32) (a4 : Vec F S1x4096 .f32) (w : Vec F S256x128 .i32) (s z : Vec F S256x1 .f32) (acc : Vec F S512x256 .f32) :
    k0_pay8 (k0_pay6 a0 a4) (k0_pay7 w) s z acc
      = gstep (extractStridedSlice S512x128 ![0, 128] (k0_pay4 a0 a4) slices_S512x4096_o0_128_S512x128) w s z acc := rfl
theorem group2_eq (v9 : FVec F S512x4096 .f32) (w : Vec F S256x128 .i32) (s z : Vec F S256x1 .f32) (acc : Vec F S512x256 .f32) :
    k0_pay9 v9 w s z acc
      = gstep (extractStridedSlice S512x128 ![0, 256] v9 slices_S512x4096_o0_256_S512x128) w s z acc := rfl
theorem group3_eq (v9 : FVec F S512x4096 .f32) (w : Vec F S256x128 .i32) (s z : Vec F S256x1 .f32) (acc : Vec F S512x256 .f32) :
    k0_pay11 (k0_pay10 v9) w s z acc
      = gstep (extractStridedSlice S512x128 ![0, 384] v9 slices_S512x4096_o0_384_S512x128) w s z acc := rfl
theorem group4_eq (v9 : FVec F S512x4096 .f32) (w : Vec F S256x128 .i32) (s z : Vec F S256x1 .f32) (acc : Vec F S512x256 .f32) :
    k0_pay12 v9 w s z acc
      = gstep (extractStridedSlice S512x128 ![0, 512] v9 slices_S512x4096_o0_512_S512x128) w s z acc := rfl
theorem group5_eq (v9 : FVec F S512x4096 .f32) (w : Vec F S256x128 .i32) (s z : Vec F S256x1 .f32) (acc : Vec F S512x256 .f32) :
    k0_pay13 v9 w s z acc
      = gstep (extractStridedSlice S512x128 ![0, 640] v9 slices_S512x4096_o0_640_S512x128) w s z acc := rfl
theorem group6_eq (v9 : FVec F S512x4096 .f32) (w : Vec F S256x128 .i32) (s z : Vec F S256x1 .f32) (acc : Vec F S512x256 .f32) :
    k0_pay15 (k0_pay14 v9 w s z acc)
      = gstep (extractStridedSlice S512x128 ![0, 768] v9 slices_S512x4096_o0_768_S512x128) w s z acc := rfl
theorem group7_eq (v9 : FVec F S512x4096 .f32) (w : Vec F S256x128 .i32) (s z : Vec F S256x1 .f32) (acc : Vec F S512x256 .f32) :
    k0_pay16 v9 w s z acc
      = gstep (extractStridedSlice S512x128 ![0, 896] v9 slices_S512x4096_o0_896_S512x128) w s z acc := rfl
theorem group8_eq (v9 : FVec F S512x4096 .f32) (w : Vec F S256x128 .i32) (s z : Vec F S256x1 .f32) (acc : Vec F S512x256 .f32) :
    k0_pay19 (k0_pay17 v9) (k0_pay18 w s z) acc (constant S512x256 .f32 0x00000000#32)
      = gstep (extractStridedSlice S512x128 ![0, 1024] v9 slices_S512x4096_o0_1024_S512x128) w s z acc := rfl
theorem group9_eq (v9 : FVec F S512x4096 .f32) (w : Vec F S256x128 .i32) (s z : Vec F S256x1 .f32) (acc : Vec F S512x256 .f32) :
    k0_pay20 v9 w s z acc
      = gstep (extractStridedSlice S512x128 ![0, 1152] v9 slices_S512x4096_o0_1152_S512x128) w s z acc := rfl
theorem group10_eq (v9 : FVec F S512x4096 .f32) (w : Vec F S256x128 .i32) (s z : Vec F S256x1 .f32) (acc : Vec F S512x256 .f32) :
    k0_pay23 (k0_pay21 v9) (k0_pay22 w s z) acc
      = gstep (extractStridedSlice S512x128 ![0, 1280] v9 slices_S512x4096_o0_1280_S512x128) w s z acc := rfl
theorem group11_eq (v9 : FVec F S512x4096 .f32) (w : Vec F S256x128 .i32) (s z : Vec F S256x1 .f32) (acc : Vec F S512x256 .f32) :
    k0_pay24 v9 w s z acc
      = gstep (extractStridedSlice S512x128 ![0, 1408] v9 slices_S512x4096_o0_1408_S512x128) w s z acc := rfl
theorem group12_eq (v9 : FVec F S512x4096 .f32) (w : Vec F S256x128 .i32) (s z : Vec F S256x1 .f32) (acc : Vec F S512x256 .f32) :
    k0_pay28 (k0_pay25 v9) (k0_pay26 s) (k0_pay27 w z) acc
      = gstep (extractStridedSlice S512x128 ![0, 1536] v9 slices_S512x4096_o0_1536_S512x128) w s z acc := rfl
theorem group13_eq (v9 : FVec F S512x4096 .f32) (w : Vec F S256x128 .i32) (s z : Vec F S256x1 .f32) (acc : Vec F S512x256 .f32) :
    k0_pay29 v9 w s z acc
      = gstep (extractStridedSlice S512x128 ![0, 1664] v9 slices_S512x4096_o0_1664_S512x128) w s z acc := rfl
theorem group14_eq (v9 : FVec F S512x4096 .f32) (w : Vec F S256x128 .i32) (s z : Vec F S256x1 .f32) (acc : Vec F S512x256 .f32) :
    k0_pay33 (k0_pay30 v9) (k0_pay31 w) (k0_pay32 s) z acc
      = gstep (extractStridedSlice S512x128 ![0, 1792] v9 slices_S512x4096_o0_1792_S512x128) w s z acc := rfl
theorem group15_eq (v9 : FVec F S512x4096 .f32) (w : Vec F S256x128 .i32) (s z : Vec F S256x1 .f32) (acc : Vec F S512x256 .f32) :
    k0_pay34 v9 w s z acc
      = gstep (extractStridedSlice S512x128 ![0, 1920] v9 slices_S512x4096_o0_1920_S512x128) w s z acc := rfl
theorem group16_eq (v9 : FVec F S512x4096 .f32) (w : Vec F S256x128 .i32) (s z : Vec F S256x1 .f32) (acc : Vec F S512x256 .f32) :
    k0_pay37 (k0_pay35 v9) (k0_pay36 w) s z acc
      = gstep (extractStridedSlice S512x128 ![0, 2048] v9 slices_S512x4096_o0_2048_S512x128) w s z acc := rfl
theorem group17_eq (v9 : FVec F S512x4096 .f32) (w : Vec F S256x128 .i32) (s z : Vec F S256x1 .f32) (acc : Vec F S512x256 .f32) :
    k0_pay38 v9 w s z acc
      = gstep (extractStridedSlice S512x128 ![0, 2176] v9 slices_S512x4096_o0_2176_S512x128) w s z acc := rfl
theorem group18_eq (v9 : FVec F S512x4096 .f32) (w : Vec F S256x128 .i32) (s z : Vec F S256x1 .f32) (acc : Vec F S512x256 .f32) :
    k0_pay40 (k0_pay39 v9) w s z acc
      = gstep (extractStridedSlice S512x128 ![0, 2304] v9 slices_S512x4096_o0_2304_S512x128) w s z acc := rfl
theorem group19_eq (v9 : FVec F S512x4096 .f32) (w : Vec F S256x128 .i32) (s z : Vec F S256x1 .f32) (acc : Vec F S512x256 .f32) :
    k0_pay41 v9 w s z acc
      = gstep (extractStridedSlice S512x128 ![0, 2432] v9 slices_S512x4096_o0_2432_S512x128) w s z acc := rfl
theorem group20_eq (v9 : FVec F S512x4096 .f32) (w : Vec F S256x128 .i32) (s z : Vec F S256x1 .f32) (acc : Vec F S512x256 .f32) :
    k0_pay42 v9 w s z acc
      = gstep (extractStridedSlice S512x128 ![0, 2560] v9 slices_S512x4096_o0_2560_S512x128) w s z acc := rfl
theorem group21_eq (v9 : FVec F S512x4096 .f32) (w : Vec F S256x128 .i32) (s z : Vec F S256x1 .f32) (acc : Vec F S512x256 .f32) :
    k0_pay44 (k0_pay43 v9 w s z acc)
      = gstep (extractStridedSlice S512x128 ![0, 2688] v9 slices_S512x4096_o0_2688_S512x128) w s z acc := rfl
theorem group22_eq (v9 : FVec F S512x4096 .f32) (w : Vec F S256x128 .i32) (s z : Vec F S256x1 .f32) (acc : Vec F S512x256 .f32) :
    k0_pay45 v9 w s z acc
      = gstep (extractStridedSlice S512x128 ![0, 2816] v9 slices_S512x4096_o0_2816_S512x128) w s z acc := rfl
theorem group23_eq (v9 : FVec F S512x4096 .f32) (w : Vec F S256x128 .i32) (s z : Vec F S256x1 .f32) (acc : Vec F S512x256 .f32) :
    k0_pay48 (k0_pay46 v9) (k0_pay47 w s z) acc (constant S512x256 .f32 0x00000000#32)
      = gstep (extractStridedSlice S512x128 ![0, 2944] v9 slices_S512x4096_o0_2944_S512x128) w s z acc := rfl
theorem group24_eq (v9 : FVec F S512x4096 .f32) (w : Vec F S256x128 .i32) (s z : Vec F S256x1 .f32) (acc : Vec F S512x256 .f32) :
    k0_pay49 v9 w s z acc
      = gstep (extractStridedSlice S512x128 ![0, 3072] v9 slices_S512x4096_o0_3072_S512x128) w s z acc := rfl
theorem group25_eq (v9 : FVec F S512x4096 .f32) (w : Vec F S256x128 .i32) (s z : Vec F S256x1 .f32) (acc : Vec F S512x256 .f32) :
    k0_pay52 (k0_pay50 v9) (k0_pay51 w s z) acc
      = gstep (extractStridedSlice S512x128 ![0, 3200] v9 slices_S512x4096_o0_3200_S512x128) w s z acc := rfl
theorem group26_eq (v9 : FVec F S512x4096 .f32) (w : Vec F S256x128 .i32) (s z : Vec F S256x1 .f32) (acc : Vec F S512x256 .f32) :
    k0_pay53 v9 w s z acc
      = gstep (extractStridedSlice S512x128 ![0, 3328] v9 slices_S512x4096_o0_3328_S512x128) w s z acc := rfl
theorem group27_eq (v9 : FVec F S512x4096 .f32) (w : Vec F S256x128 .i32) (s z : Vec F S256x1 .f32) (acc : Vec F S512x256 .f32) :
    k0_pay57 (k0_pay54 v9) (k0_pay55 s) (k0_pay56 w z) acc
      = gstep (extractStridedSlice S512x128 ![0, 3456] v9 slices_S512x4096_o0_3456_S512x128) w s z acc := rfl
theorem group28_eq (v9 : FVec F S512x4096 .f32) (w : Vec F S256x128 .i32) (s z : Vec F S256x1 .f32) (acc : Vec F S512x256 .f32) :
    k0_pay58 v9 w s z acc
      = gstep (extractStridedSlice S512x128 ![0, 3584] v9 slices_S512x4096_o0_3584_S512x128) w s z acc := rfl
theorem group29_eq (v9 : FVec F S512x4096 .f32) (w : Vec F S256x128 .i32) (s z : Vec F S256x1 .f32) (acc : Vec F S512x256 .f32) :
    k0_pay62 (k0_pay59 v9) (k0_pay60 w) (k0_pay61 s) z acc
      = gstep (extractStridedSlice S512x128 ![0, 3712] v9 slices_S512x4096_o0_3712_S512x128) w s z acc := rfl
theorem group30_eq (v9 : FVec F S512x4096 .f32) (w : Vec F S256x128 .i32) (s z : Vec F S256x1 .f32) (acc : Vec F S512x256 .f32) :
    k0_pay63 v9 w s z acc
      = gstep (extractStridedSlice S512x128 ![0, 3840] v9 slices_S512x4096_o0_3840_S512x128) w s z acc := rfl
theorem group31_eq (v9 : FVec F S512x4096 .f32) (w : Vec F S256x128 .i32) (s z : Vec F S256x1 .f32) (acc : Vec F S512x256 .f32) :
    k0_pay1 (k0_pay64 v9) (k0_pay65 w) s z acc
      = gstep (extractStridedSlice S512x128 ![0, 3968] v9 slices_S512x4096_o0_3968_S512x128) w s z acc := rfl

end Cert.KernelIdeal.Body

end
-- ==== Proof.BodyValue.lean ====
/-
  What one grid point's body leaves in its output block.

  The body zeroes a [512,256] accumulator, adds the 32 groups' products into it one after the other, and stores the
  accumulator plus the bias row. Every store covers the whole accumulator and every read-back reads the whole of
  it, so a read-back returns exactly what the store before it wrote: the stored block is
  `bias-add (step₃₁ (… (step₀ zero)))`, each step that of GroupStep over the group's 128 columns of the equalized
  activations `x / eq` and of the integer weights, and the group's column of scales and zero points. The 33
  accumulator states are named `acc0 … acc32`.
-/
import proofs.«159262_j50654844289583_2_alg».proof.Proof.Gen.KernelIdeal.Frame
import proofs.«159262_j50654844289583_2_alg».proof.Proof.GroupTable
import proofs.«159262_j50654844289583_2_alg».proof.Proof.AccTable
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.ValueIdx Idealize.SL.Sem Cert.KernelIdeal Cert.KernelIdeal.Gen

variable {F : FTy → Type} [FloatOps F]

theorem hz : (![0, 0] : Fin 2 → Nat) = fun _ => 0 := funext fun a => by fin_cases a <;> rfl

/-- The block the body stores: the last accumulator plus the bias row on every row. -/
def outBlock (x0 : Vec F S512x4096 .f32) (x1 : Vec F S256x4096 .i32) (x2 x3 : Vec F S256x32 .f32) (x4 : Vec F S1x4096 .f32)
    (x5 : Vec F S1x256 .f32) : FVec F S512x256 .f32 :=
  k0_pay2 (acc32 x0 x1 x2 x3 x4) x5

/-- What the run found in the output's staging buffer is that block. -/
theorem out_eq (c : Dev nD) (i : grid0.Coords) (arg2 : Memref sig .tc .vmem S512x4096 .f32) (harg2 : arg2.IsWhole) (arg3 : Memref sig .tc .vmem S256x4096 .i32) (harg3 : arg3.IsWhole) (arg4 : Memref sig .tc .vmem S256x32 .f32) (harg4 : arg4.IsWhole) (arg5 : Memref sig .tc .vmem S256x32 .f32) (harg5 : arg5.IsWhole) (arg6 : Memref sig .tc .vmem S1x4096 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S512x256 .f32) (harg9 : arg9.IsWhole)
    (x0 : Vec F S512x4096 .f32) (x1 : Vec F S256x4096 .i32) (x2 : Vec F S256x32 .f32) (x3 : Vec F S256x32 .f32) (x4 : Vec F S1x4096 .f32) (x5 : Vec F S1x256 .f32) :
    out0_A_6 c i arg2 harg2 arg3 harg3 arg4 harg4 arg5 harg5 arg6 harg6 arg7 harg7 arg8 harg8 arg9 harg9 x0 x1 x2 x3 x4 x5 = outBlock x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz]
  simp only [View.readCov_cons_toLoadRect, View.readAt_eq_ld, harg2.read_unread, harg3.read_unread, harg4.read_unread,
    harg5.read_unread, harg6.read_unread, harg7.read_unread, View.ld_unit_zero (S := S512x4096) hz,
    View.ld_unit_zero (S := S1x4096) hz, View.ld_unit_zero (S := S1x256) hz]
  simp only [group0_eq, group1_eq, group2_eq, group3_eq, group4_eq, group5_eq, group6_eq, group7_eq, group8_eq, group9_eq, group10_eq, group11_eq, group12_eq, group13_eq, group14_eq, group15_eq, group16_eq, group17_eq, group18_eq, group19_eq, group20_eq, group21_eq, group22_eq, group23_eq, group24_eq, group25_eq, group26_eq, group27_eq, group28_eq, group29_eq, group30_eq, group31_eq]
  rfl

end Cert.KernelIdeal.Body

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Spec.lean ====
/-
  The function both programs compute, over the six argument arrays.

  input x : [2, 1024, 4096], integer weights w : [11008, 32, 128] in 32 groups of 128, scales s and integer zero
  points z : [11008, 32, 1] (one per output row and group), equalization scales e : [4096], bias : [11008]. Column
  i < 4096 of the flattened weights belongs to group i / 128 at lane i % 128, and

      out (b, t, o) = ∑ i < 4096, (x (b, t, i) / e i) * ((w (o, i / 128, i % 128) - z (o, i / 128)) * s (o, i / 128)) + bias o

  on the extended reals: a dequantized linear layer applied to the equalized activations.
-/
import Idealize.ShloMosaic.PureOps.Ideal
import Idealize.ShloMosaic.Lib.ValueIdx

noncomputable section

namespace Cert.Spec

open Idealize.ShloMosaic Idealize.ShloMosaic.ValueIdx

/-- The group of a column. -/
def grp (i : Fin 4096) : Fin 32 := ⟨i.val / 128, by have := i.isLt; omega⟩

/-- The lane of a column inside its group. -/
def lane (i : Fin 4096) : Fin 128 := ⟨i.val % 128, Nat.mod_lt _ (by decide)⟩

/-- Column `i`'s term of output entry (b, t, o). -/
def specTerm (a0 : Vec Ideal ⟨3, ![2, 1024, 4096]⟩ .f32) (a1 : Vec Ideal ⟨3, ![11008, 32, 128]⟩ .i32)
    (a2 : Vec Ideal ⟨3, ![11008, 32, 1]⟩ .f32) (a3 : Vec Ideal ⟨3, ![11008, 32, 1]⟩ .i32) (a4 : Vec Ideal ⟨1, ![4096]⟩ .f32)
    (b : Fin 2) (t : Fin 1024) (o : Fin 11008) (i : Fin 4096) : Ideal .f32 :=
  Ideal.div (a0 (ix3 b t i)) (a4 (ix1 i))
    * ((FloatOps.sitofp .f32 (a1 (ix3 o (grp i) (lane i))) - FloatOps.sitofp .f32 (a3 (ix3 o (grp i) (0 : Fin 1))))
        * a2 (ix3 o (grp i) (0 : Fin 1)))

/-- Output entry (b, t, o). -/
def specEntry (a0 : Vec Ideal ⟨3, ![2, 1024, 4096]⟩ .f32) (a1 : Vec Ideal ⟨3, ![11008, 32, 128]⟩ .i32)
    (a2 : Vec Ideal ⟨3, ![11008, 32, 1]⟩ .f32) (a3 : Vec Ideal ⟨3, ![11008, 32, 1]⟩ .i32) (a4 : Vec Ideal ⟨1, ![4096]⟩ .f32)
    (a5 : Vec Ideal ⟨1, ![11008]⟩ .f32) (b : Fin 2) (t : Fin 1024) (o : Fin 11008) : Ideal .f32 :=
  (∑ i : Fin 4096, specTerm a0 a1 a2 a3 a4 b t o i) + a5 (ix1 o)

/-- The whole result. -/
def spec (a0 : Vec Ideal ⟨3, ![2, 1024, 4096]⟩ .f32) (a1 : Vec Ideal ⟨3, ![11008, 32, 128]⟩ .i32)
    (a2 : Vec Ideal ⟨3, ![11008, 32, 1]⟩ .f32) (a3 : Vec Ideal ⟨3, ![11008, 32, 1]⟩ .i32) (a4 : Vec Ideal ⟨1, ![4096]⟩ .f32)
    (a5 : Vec Ideal ⟨1, ![11008]⟩ .f32) : Vec Ideal ⟨3, ![2, 1024, 11008]⟩ .f32 :=
  fun j => specEntry a0 a1 a2 a3 a4 a5 (j 0) (j 1) (j 2)

end Cert.Spec

end
-- ==== Proof.BlockValue.lean ====
/-
  One grid point's output block as a plain sum.

  At row p and column q the stored block is the last accumulator plus the bias. The accumulator chain starts from 0
  and adds the 32 groups' inner products one after the other, so the last accumulator is the sum over the group
  numbers g < 32 of group g's inner product over k < 128; and a sum over g < 32 of sums over k < 128 of a term at
  column g * 128 + k is the sum of the term over all 4096 columns (addition on the extended reals is commutative and
  associative, infinities included: no finiteness is used). The term at column i is

      (x (p, i) / eq i) * ((w (q, i) - z (q, i / 128)) * s (q, i / 128)).
-/
import proofs.«159262_j50654844289583_2_alg».proof.Proof.StepTable
import proofs.«159262_j50654844289583_2_alg».proof.Proof.BodyValue
import proofs.«159262_j50654844289583_2_alg».proof.Proof.LibSumBlocks
import proofs.«159262_j50654844289583_2_alg».proof.Proof.Spec

noncomputable section

namespace Cert.KernelIdeal.Body

open Idealize.ShloMosaic Idealize.ShloMosaic.ValueIdx Idealize.SL.Sem Cert.KernelIdeal Cert.KernelIdeal.Gen
open Cert.Spec (grp)

/-- After the 32 groups the accumulator's entry is the sum of the groups' inner products. -/
theorem acc32_sum (x0 : Vec Ideal S512x4096 .f32) (x1 : Vec Ideal S256x4096 .i32) (x2 x3 : Vec Ideal S256x32 .f32)
    (x4 : Vec Ideal S1x4096 .f32) (p : Fin 512) (q : Fin 256) :
    acc32 x0 x1 x2 x3 x4 (ix2 p q) = ∑ g ∈ Finset.range 32, groupSum (xeq x0 x4) x1 x2 x3 p q g := by
  rw [acc32_apply, acc31_apply, acc30_apply, acc29_apply, acc28_apply, acc27_apply, acc26_apply, acc25_apply, acc24_apply, acc23_apply, acc22_apply, acc21_apply, acc20_apply, acc19_apply, acc18_apply, acc17_apply, acc16_apply, acc15_apply, acc14_apply, acc13_apply, acc12_apply, acc11_apply, acc10_apply, acc9_apply, acc8_apply, acc7_apply, acc6_apply, acc5_apply, acc4_apply, acc3_apply, acc2_apply, acc1_apply, acc0_apply]
  simp only [Finset.sum_range_succ, Finset.sum_range_zero]

/-- The term of column `i` in entry (p, q): the equalized activation times the dequantized weight. -/
def term (x0 : Vec Ideal S512x4096 .f32) (x1 : Vec Ideal S256x4096 .i32) (x2 x3 : Vec Ideal S256x32 .f32)
    (x4 : Vec Ideal S1x4096 .f32) (p : Fin 512) (q : Fin 256) (i : Fin 4096) : Ideal .f32 :=
  Ideal.div (x0 (ix2 p i)) (x4 (ix2 (0 : Fin 1) i))
    * ((FloatOps.sitofp .f32 (x1 (ix2 q i)) - x3 (ix2 q (grp i))) * x2 (ix2 q (grp i)))

/-- Group `g`'s inner product is the sum of the terms of its 128 columns. -/
theorem groupSum_eq (x0 : Vec Ideal S512x4096 .f32) (x1 : Vec Ideal S256x4096 .i32) (x2 x3 : Vec Ideal S256x32 .f32)
    (x4 : Vec Ideal S1x4096 .f32) (p : Fin 512) (q : Fin 256) (g : Fin 32) :
    groupSum (xeq x0 x4) x1 x2 x3 p q g.val
      = ∑ k : Fin 128, term x0 x1 x2 x3 x4 p q ⟨g.val * 128 + k.val, Cert.SumBlocks.block_lt g k⟩ := by
  unfold groupSum
  refine Finset.sum_congr rfl fun k _ => ?_
  have hk : g.val * 128 + k.val < 4096 := Cert.SumBlocks.block_lt g k
  have hg : grp ⟨g.val * 128 + k.val, hk⟩ = g :=
    Fin.ext (by show (g.val * 128 + k.val) / 128 = g.val; have := k.isLt; omega)
  unfold colX colW colG term
  rw [dif_pos hk, dif_pos hk, dif_pos g.isLt, dif_pos g.isLt, xeq_apply, hg]

/-- The stored block at (p, q): the sum of the 4096 columns' terms, plus the bias of column q. -/
theorem outBlock_apply (x0 : Vec Ideal S512x4096 .f32) (x1 : Vec Ideal S256x4096 .i32) (x2 x3 : Vec Ideal S256x32 .f32)
    (x4 : Vec Ideal S1x4096 .f32) (x5 : Vec Ideal S1x256 .f32) (p : Fin 512) (q : Fin 256) :
    outBlock x0 x1 x2 x3 x4 x5 (ix2 p q)
      = (∑ i : Fin 4096, term x0 x1 x2 x3 x4 p q i) + x5 (ix2 (0 : Fin 1) q) := by
  unfold outBlock k0_pay2
  rw [shapeCast_self]
  refine (addf_apply _ _ _).trans ?_
  rw [broadcastTo_1b_ab_apply, acc32_sum,
    Cert.SumBlocks.sum_range_eq_sum_fin 32 _
      (fun g : Fin 32 => ∑ k : Fin 128, term x0 x1 x2 x3 x4 p q ⟨g.val * 128 + k.val, Cert.SumBlocks.block_lt g k⟩)
      (fun g => groupSum_eq x0 x1 x2 x3 x4 p q g),
    Cert.SumBlocks.sum_fin_blocks 32 128 rfl (term x0 x1 x2 x3 x4 p q)]

end Cert.KernelIdeal.Body

end
-- ==== Proof.ArrayValue.lean ====
/-
  From the grid's blocks to the whole [2048, 11008] array.

  The grid has 4 x 43 points; point t = 43 i + j reads rows 512 i … 512 i + 511 of the activations, rows
  256 j … 256 j + 255 of the weights, scales and zero points, the whole equalization row and columns
  256 j … 256 j + 255 of the bias row, and writes block (i, j) of the output. With the block's entry (p, q) being the
  sum over the 4096 columns of the term of BlockValue plus the bias, block (i, j) is the restriction to its rows and
  columns of ONE function of the arrays the region finds,

      entry (r, o) = ∑ i < 4096, (X (r, i) / E i) * ((W (o, i) - Z (o, i / 128)) * S (o, i / 128)) + B o,

  and the 172 blocks cover the array (row r, column o lies in block (r / 512, o / 256)); so the array ends holding
  `entry` everywhere.
-/
import proofs.«159262_j50654844289583_2_alg».proof.Proof.BlockValue
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)
open Cert.Spec (grp)

/-- The term of column `i` in entry (r, o) of the whole array. -/
def wterm (X : Vec Ideal S2048x4096 .f32) (W : Vec Ideal S11008x4096 .i32) (Sc Z : Vec Ideal S11008x32 .f32)
    (E : Vec Ideal S1x4096 .f32) (r : Fin 2048) (o : Fin 11008) (i : Fin 4096) : Ideal .f32 :=
  Ideal.div (X (ix2 r i)) (E (ix2 (0 : Fin 1) i))
    * ((FloatOps.sitofp .f32 (W (ix2 o i)) - Z (ix2 o (grp i))) * Sc (ix2 o (grp i)))

/-- Entry (r, o) of the whole array: the 4096 columns' terms summed, plus the bias of column o. -/
def entry (X : Vec Ideal S2048x4096 .f32) (W : Vec Ideal S11008x4096 .i32) (Sc Z : Vec Ideal S11008x32 .f32)
    (E : Vec Ideal S1x4096 .f32) (Bi : Vec Ideal S1x11008 .f32) (r : Fin 2048) (o : Fin 11008) : Ideal .f32 :=
  (∑ i : Fin 4096, wterm X W Sc Z E r o i) + Bi (ix2 (0 : Fin 1) o)

/-- The whole array as one function of the arrays the region finds. -/
def G2 (X : Vec Ideal S2048x4096 .f32) (W : Vec Ideal S11008x4096 .i32) (Sc Z : Vec Ideal S11008x32 .f32)
    (E : Vec Ideal S1x4096 .f32) (Bi : Vec Ideal S1x11008 .f32) : Vec Ideal S2048x11008 .f32 :=
  fun j => entry X W Sc Z E Bi (j 0) (j 1)

/-- Row `p` of row block `bi`. -/
def rowOf (bi : Nat) (hbi : bi < 4) (p : Fin 512) : Fin 2048 := ⟨bi * 512 + p.val, by have := p.isLt; omega⟩
/-- Column `q` of column block `bj`. -/
def colOf (bj : Nat) (hbj : bj < 43) (q : Fin 256) : Fin 11008 := ⟨bj * 256 + q.val, by have := q.isLt; omega⟩

/-- A point's stored block is the whole array's function on the block's rows and columns, when the point's input
    blocks are the corresponding rows and columns of the whole arrays. -/
theorem block_entry (X : Vec Ideal S2048x4096 .f32) (W : Vec Ideal S11008x4096 .i32) (Sc Z : Vec Ideal S11008x32 .f32)
    (E : Vec Ideal S1x4096 .f32) (Bi : Vec Ideal S1x11008 .f32) (bi bj : Nat) (hbi : bi < 4) (hbj : bj < 43)
    (x0 : Vec Ideal S512x4096 .f32) (x1 : Vec Ideal S256x4096 .i32) (x2 x3 : Vec Ideal S256x32 .f32)
    (x4 : Vec Ideal S1x4096 .f32) (x5 : Vec Ideal S1x256 .f32)
    (h0 : ∀ (p : Fin 512) (n : Fin 4096), x0 (ix2 p n) = X (ix2 (rowOf bi hbi p) n))
    (h1 : ∀ (q : Fin 256) (n : Fin 4096), x1 (ix2 q n) = W (ix2 (colOf bj hbj q) n))
    (h2 : ∀ (q : Fin 256) (g : Fin 32), x2 (ix2 q g) = Sc (ix2 (colOf bj hbj q) g))
    (h3 : ∀ (q : Fin 256) (g : Fin 32), x3 (ix2 q g) = Z (ix2 (colOf bj hbj q) g))
    (h4 : ∀ (n : Fin 4096), x4 (ix2 (0 : Fin 1) n) = E (ix2 (0 : Fin 1) n))
    (h5 : ∀ (q : Fin 256), x5 (ix2 (0 : Fin 1) q) = Bi (ix2 (0 : Fin 1) (colOf bj hbj q)))
    (p : Fin 512) (q : Fin 256) :
    outBlock x0 x1 x2 x3 x4 x5 (ix2 p q) = entry X W Sc Z E Bi (rowOf bi hbi p) (colOf bj hbj q) := by
  rw [outBlock_apply]
  unfold entry
  rw [h5]
  refine congrArg (· + Bi (ix2 (0 : Fin 1) (colOf bj hbj q))) (Finset.sum_congr rfl fun i _ => ?_)
  unfold term wterm
  rw [h0, h1, h2, h3, h4]

variable (m : (ℓ : Loc nD τ sig) → Buf (Elt Ideal) ℓ) (ρ : Dev nD → PrngReg)

/-- The printed index maps over the grid: point t reads row block t / 43 of the activations, row block t % 43 of the
    weights, scales and zero points, the one block of the equalization row, column block t % 43 of the bias row,
    and writes block (t / 43, t % 43). -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 43
    ∧ win0_6.index t (0 : Fin 2) = t.val / 43 ∧ win0_6.index t (1 : Fin 2) = t.val % 43 :=
  (by decide +kernel : ∀ t : Fin grid0.N, _)

/-- WHAT POINT `t` WRITES BACK is block `t` of `G2` of the arrays as the region finds them. -/
theorem flushed_eq (c : Dev nD) (t : Fin cfg0.N) :
    (dats m 0 c).flushed 6 t = ((cfg0.win 6).blk t).view.read (Elt Ideal)
      (G2 (V m c main_v0) (V m c main_v1) (V m c main_v2) (V m c main_v4) (V m c main_v5) (V m c main_v6)) := by
  show (cfg0.win 6).cut (grid0.coords t) ((dats m 0 c).after 6 t) = _
  rw [after0_6]
  unfold outsAt0
  rw [out_eq]
  have hN : grid0.N = 172 := N_0
  have ht : t.val < 172 := by have h : t.val < grid0.N := t.isLt; omega
  have hbi : t.val / 43 < 4 := by omega
  have hbj : t.val % 43 < 43 := by omega
  obtain ⟨e00, e01, e10, e11, e20, e21, e30, e31, e40, e41, e50, e51, e60, e61⟩ := idx_facts t
  funext y
  obtain ⟨p, q, rfl⟩ : ∃ (p : Fin 512) (q : Fin 256), y = ix2 p q := ⟨y 0, y 1, eq_ix2 y⟩
  show outBlock (iblk m c 0 t) (iblk m c 1 t) (iblk m c 2 t) (iblk m c 3 t) (iblk m c 4 t) (iblk m c 5 t) (ix2 p q)
    = G2 (V m c main_v0) (V m c main_v1) (V m c main_v2) (V m c main_v4) (V m c main_v5) (V m c main_v6)
        (((cfg0.win 6).blk t).view.emb (ix2 p q))
  have hemb : ((cfg0.win 6).blk t).view.emb (ix2 p q) = ix2 (rowOf (t.val / 43) hbi p) (colOf (t.val % 43) hbj q) := by
    funext a; apply Fin.ext
    match a with
    | ⟨0, _⟩ => show win0_6.index t (0 : Fin 2) * 512 + 1 * p.val = t.val / 43 * 512 + p.val; rw [e60]; omega
    | ⟨1, _⟩ => show win0_6.index t (1 : Fin 2) * 256 + 1 * q.val = t.val % 43 * 256 + q.val; rw [e61]; omega
  rw [hemb]
  show _ = entry (V m c main_v0) (V m c main_v1) (V m c main_v2) (V m c main_v4) (V m c main_v5) (V m c main_v6)
    (rowOf (t.val / 43) hbi p) (colOf (t.val % 43) hbj q)
  refine block_entry (V m c main_v0) (V m c main_v1) (V m c main_v2) (V m c main_v4) (V m c main_v5) (V m c main_v6)
    (t.val / 43) (t.val % 43) hbi hbj (iblk m c 0 t) (iblk m c 1 t) (iblk m c 2 t) (iblk m c 3 t) (iblk m c 4 t)
    (iblk m c 5 t) ?_ ?_ ?_ ?_ ?_ ?_ p q
  · intro p n
    show V m c main_v0 (((cfg0.win 0).blk t).view.emb (ix2 p n)) = V m c main_v0 (ix2 (rowOf (t.val / 43) hbi p) n)
    refine congrArg (V m c main_v0) (funext fun a => Fin.ext ?_)
    match a with
    | ⟨0, _⟩ => show win0_0.index t (0 : Fin 2) * 512 + 1 * p.val = t.val / 43 * 512 + p.val; rw [e00]; omega
    | ⟨1, _⟩ => show win0_0.index t (1 : Fin 2) * 4096 + 1 * n.val = n.val; rw [e01]; omega
  · intro q n
    show V m c main_v1 (((cfg0.win 1).blk t).view.emb (ix2 q n)) = V m c main_v1 (ix2 (colOf (t.val % 43) hbj q) n)
    refine congrArg (V m c main_v1) (funext fun a => Fin.ext ?_)
    match a with
    | ⟨0, _⟩ => show win0_1.index t (0 : Fin 2) * 256 + 1 * q.val = t.val % 43 * 256 + q.val; rw [e10]; omega
    | ⟨1, _⟩ => show win0_1.index t (1 : Fin 2) * 4096 + 1 * n.val = n.val; rw [e11]; omega
  · intro q g
    show V m c main_v2 (((cfg0.win 2).blk t).view.emb (ix2 q g)) = V m c main_v2 (ix2 (colOf (t.val % 43) hbj q) g)
    refine congrArg (V m c main_v2) (funext fun a => Fin.ext ?_)
    match a with
    | ⟨0, _⟩ => show win0_2.index t (0 : Fin 2) * 256 + 1 * q.val = t.val % 43 * 256 + q.val; rw [e20]; omega
    | ⟨1, _⟩ => show win0_2.index t (1 : Fin 2) * 32 + 1 * g.val = g.val; rw [e21]; omega
  · intro q g
    show V m c main_v4 (((cfg0.win 3).blk t).view.emb (ix2 q g)) = V m c main_v4 (ix2 (colOf (t.val % 43) hbj q) g)
    refine congrArg (V m c main_v4) (funext fun a => Fin.ext ?_)
    match a with
    | ⟨0, _⟩ => show win0_3.index t (0 : Fin 2) * 256 + 1 * q.val = t.val % 43 * 256 + q.val; rw [e30]; omega
    | ⟨1, _⟩ => show win0_3.index t (1 : Fin 2) * 32 + 1 * g.val = g.val; rw [e31]; omega
  · intro n
    show V m c main_v5 (((cfg0.win 4).blk t).view.emb (ix2 (0 : Fin 1) n)) = V m c main_v5 (ix2 (0 : Fin 1) n)
    refine congrArg (V m c main_v5) (funext fun a => Fin.ext ?_)
    match a with
    | ⟨0, _⟩ => show win0_4.index t (0 : Fin 2) * 1 + 1 * 0 = 0; rw [e40]
    | ⟨1, _⟩ => show win0_4.index t (1 : Fin 2) * 4096 + 1 * n.val = n.val; rw [e41]; omega
  · intro q
    show V m c main_v6 (((cfg0.win 5).blk t).view.emb (ix2 (0 : Fin 1) q)) = V m c main_v6 (ix2 (0 : Fin 1) (colOf (t.val % 43) hbj q))
    refine congrArg (V m c main_v6) (funext fun a => Fin.ext ?_)
    match a with
    | ⟨0, _⟩ => show win0_5.index t (0 : Fin 2) * 1 + 1 * 0 = 0; rw [e50]
    | ⟨1, _⟩ => show win0_5.index t (1 : Fin 2) * 256 + 1 * q.val = t.val % 43 * 256 + q.val; rw [e51]; omega

/-- An index of the array is in point `t`'s block iff each coordinate is in the block's range on its axis. -/
theorem mem_blk (t : Fin cfg0.N) (i : S2048x11008.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v7).slice (win0_6.rect t)).set ↔ _
  rw [View.set_slice_whole, Rect.mem_set_unit]
  exact Iff.rfl

/-- Every entry of the array lies in the block of some point: row r, column o in that of point 43 (r / 512) + o / 256. -/
theorem cover (i : S2048x11008.Idx) :
    ∃ t : Fin cfg0.N, (cfg0.win 6).flush t = true ∧ i ∈ ((cfg0.win 6).blk t).view.set := by
  have hN : grid0.N = 172 := N_0
  have h0 : (i 0).val < 2048 := (i 0).isLt
  have h1 : (i 1).val < 11008 := (i 1).isLt
  have hlt : (i 0).val / 512 * 43 + (i 1).val / 256 < cfg0.N := by
    show (i 0).val / 512 * 43 + (i 1).val / 256 < grid0.N
    rw [hN]; omega
  refine ⟨⟨(i 0).val / 512 * 43 + (i 1).val / 256, hlt⟩, flush0_6 _, ?_⟩
  rw [mem_blk]
  obtain ⟨-, -, -, -, -, -, -, -, -, -, -, -, e60, e61⟩ := idx_facts ⟨(i 0).val / 512 * 43 + (i 1).val / 256, hlt⟩
  intro a
  match a with
  | ⟨0, _⟩ =>
    show win0_6.index ⟨(i 0).val / 512 * 43 + (i 1).val / 256, hlt⟩ (0 : Fin 2) * 512 ≤ (i 0).val
      ∧ (i 0).val < win0_6.index ⟨(i 0).val / 512 * 43 + (i 1).val / 256, hlt⟩ (0 : Fin 2) * 512 + 512
    rw [e60]
    show ((i 0).val / 512 * 43 + (i 1).val / 256) / 43 * 512 ≤ (i 0).val
      ∧ (i 0).val < ((i 0).val / 512 * 43 + (i 1).val / 256) / 43 * 512 + 512
    omega
  | ⟨1, _⟩ =>
    show win0_6.index ⟨(i 0).val / 512 * 43 + (i 1).val / 256, hlt⟩ (1 : Fin 2) * 256 ≤ (i 1).val
      ∧ (i 1).val < win0_6.index ⟨(i 0).val / 512 * 43 + (i 1).val / 256, hlt⟩ (1 : Fin 2) * 256 + 256
    rw [e61]
    show ((i 0).val / 512 * 43 + (i 1).val / 256) % 43 * 256 ≤ (i 1).val
      ∧ (i 1).val < ((i 0).val / 512 * 43 + (i 1).val / 256) % 43 * 256 + 256
    omega

/-- THE ARRAY after the run: `G2` of the arrays the region finds. -/
theorem final (c : Dev nD) : (dats m 0 c).arrAt 6 cfg0.N
    = G2 (V m c main_v0) (V m c main_v1) (V m c main_v2) (V m c main_v4) (V m c main_v5) (V m c main_v6) :=
  (dats m 0 c).arrAt_eq_of_cover 6 _ (fun t _ => flushed_eq m c t) cover

end Cert.KernelIdeal.Arr

end
-- ==== Proof.KernelRun.lean ====
/-
  The kernel program's result as a function of its arguments.

  Before the region the host flattens the activations to [2048, 4096] (row 1024 b + t holds (b, t, ·)), the weights
  to [11008, 4096] (column 128 g + l holds (·, g, l)), drops the unit axis of the scales and of the zero points and
  converts the zero points to reals, and lays the equalization scales and the bias out as one row each. After the
  region it splits the [2048, 11008] output back into [2, 1024, 11008]. Reading each of these layout changes at an
  index turns the region's array (ArrayValue's `entry`) into the specification's entry over the argument arrays.
-/
import proofs.«159262_j50654844289583_2_alg».proof.Proof.ArrayValue
import Idealize.ShloMosaic.Lib.StableHlo.Run
import Idealize.ShloMosaic.Lib.ValueLayout

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Body Idealize.ShloMosaic.StableHlo
open Idealize.ShloMosaic.Pipeline (Dat)
open Cert.Spec (grp lane)

/-- The kernel program's result of its six arguments: the region's array over the re-laid arguments, split back
    into [2, 1024, 11008]. -/
def kres (a0 : Vec Ideal S2x1024x4096 .f32) (a1 : Vec Ideal S11008x32x128 .i32) (a2 : Vec Ideal S11008x32x1 .f32)
    (a3 : Vec Ideal S11008x32x1 .i32) (a4 : Vec Ideal S4096 .f32) (a5 : Vec Ideal S11008 .f32) :
    Vec Ideal S2x1024x11008 .f32 :=
  shapeCast S2x1024x11008
    (G2 (shapeCast S2048x4096 a0 shapeCasts_S2x1024x4096_S2048x4096)
      (shapeCast S11008x4096 a1 shapeCasts_S11008x32x128_S11008x4096)
      (shapeCast S11008x32 a2 shapeCasts_S11008x32x1_S11008x32)
      (sitofp (F := Ideal) .f32 (shapeCast S11008x32 a3 shapeCasts_S11008x32x1_S11008x32))
      (shapeCast S1x4096 a4 shapeCasts_S4096_S1x4096)
      (shapeCast S1x11008 a5 shapeCasts_S11008_S1x11008))
    shapeCasts_S2048x11008_S2x1024x11008

variable (m : (ℓ : Loc nD τ sig) → Buf (Elt Ideal) ℓ) (ρ : Dev nD → PrngReg)

/-! ## The arrays the region finds -/

theorem V_v0 (c : Dev nD) : V m c main_v0
    = shapeCast S2048x4096 (m ((c : Thread nD τ).loc main_arg0)) shapeCasts_S2x1024x4096_S2048x4096 := by
  show StableHlo.after hostOps0 (fun b => m (c, b)) (Proc.devRef .tc main_v0) = _
  after_results
  rfl
theorem V_v1 (c : Dev nD) : V m c main_v1
    = shapeCast S11008x4096 (m ((c : Thread nD τ).loc main_arg1)) shapeCasts_S11008x32x128_S11008x4096 := by
  show StableHlo.after hostOps0 (fun b => m (c, b)) (Proc.devRef .tc main_v1) = _
  after_results
  rfl
theorem V_v2 (c : Dev nD) : V m c main_v2
    = shapeCast S11008x32 (m ((c : Thread nD τ).loc main_arg2)) shapeCasts_S11008x32x1_S11008x32 := by
  show StableHlo.after hostOps0 (fun b => m (c, b)) (Proc.devRef .tc main_v2) = _
  after_results
  rfl
theorem V_v4 (c : Dev nD) : V m c main_v4
    = sitofp (F := Ideal) .f32 (shapeCast S11008x32 (m ((c : Thread nD τ).loc main_arg3)) shapeCasts_S11008x32x1_S11008x32) := by
  show StableHlo.after hostOps0 (fun b => m (c, b)) (Proc.devRef .tc main_v4) = _
  after_results
  rfl
theorem V_v5 (c : Dev nD) : V m c main_v5
    = shapeCast S1x4096 (m ((c : Thread nD τ).loc main_arg4)) shapeCasts_S4096_S1x4096 := by
  show StableHlo.after hostOps0 (fun b => m (c, b)) (Proc.devRef .tc main_v5) = _
  after_results
  rfl
theorem V_v6 (c : Dev nD) : V m c main_v6
    = shapeCast S1x11008 (m ((c : Thread nD τ).loc main_arg5)) shapeCasts_S11008_S1x11008 := by
  show StableHlo.after hostOps0 (fun b => m (c, b)) (Proc.devRef .tc main_v6) = _
  after_results
  rfl

/-! ## The lines after the region -/

/-- The result buffer after the run: the region's output array split into [2, 1024, 11008]. -/
theorem tail_eq (c : Dev nD) :
    Pipeline.afterTail₀ cfgs (dats m) 0 (V0 m) [hostOps1] c main_v8
      = kres (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have hw : Pipeline.withArrays (cfgs 0).spec c (V0 m c) (fun w => (dats m 0 c).arrAt w (cfgs 0).N) (Proc.devRef .tc main_v7)
      = G2 (V m c main_v0) (V m c main_v1) (V m c main_v2) (V m c main_v4) (V m c main_v5) (V m c main_v6) :=
    (Pipeline.withArrays_arr spec0 launch0.win.arr_inj c _ _ 6).trans (final m c)
  unfold Pipeline.afterTail₀
  show StableHlo.after hostOps1 _ (Proc.devRef .tc main_v8) = _
  after_results
  rw [hw, V_v0, V_v1, V_v2, V_v4, V_v5, V_v6]
  rfl

/-! ## The run, read -/

/-- The kernel program's result at (b, t, o) is the specification's entry: each layout change read at its index. -/
theorem kres_eq_spec (a0 : Vec Ideal S2x1024x4096 .f32) (a1 : Vec Ideal S11008x32x128 .i32) (a2 : Vec Ideal S11008x32x1 .f32)
    (a3 : Vec Ideal S11008x32x1 .i32) (a4 : Vec Ideal S4096 .f32) (a5 : Vec Ideal S11008 .f32) :
    kres a0 a1 a2 a3 a4 a5 = Cert.Spec.spec a0 a1 a2 a3 a4 a5 := by
  funext j
  obtain ⟨b, t, o, rfl⟩ : ∃ (b : Fin 2) (t : Fin 1024) (o : Fin 11008), j = ix3 b t o := ⟨j 0, j 1, j 2, eq_ix3 j⟩
  have hb : b.val < 2 := b.isLt
  have ht : t.val < 1024 := t.isLt
  have ho : o.val < 11008 := o.isLt
  have hr : b.val * 1024 + t.val < 2048 := by omega
  unfold kres
  rw [shapeCast_apply _ shapeCasts_S2048x11008_S2x1024x11008 (ix3 b t o) (ix2 (⟨b.val * 1024 + t.val, hr⟩ : Fin 2048) o)
    (by rw [Shape.rowMajor_val_two, Shape.rowMajor_val_three]; rfl)]
  show entry _ _ _ _ _ _ (⟨b.val * 1024 + t.val, hr⟩ : Fin 2048) o = Cert.Spec.specEntry a0 a1 a2 a3 a4 a5 b t o
  unfold entry Cert.Spec.specEntry
  rw [shapeCast_a_1a_apply]
  refine congrArg (· + a5 (ix1 o)) (Finset.sum_congr rfl fun i _ => ?_)
  have hi : i.val < 4096 := i.isLt
  unfold wterm Cert.Spec.specTerm
  rw [shapeCast_a_1a_apply,
    shapeCast_apply a0 shapeCasts_S2x1024x4096_S2048x4096 (ix2 (⟨b.val * 1024 + t.val, hr⟩ : Fin 2048) i) (ix3 b t i)
      (by rw [Shape.rowMajor_val_two, Shape.rowMajor_val_three]; rfl),
    shapeCast_apply a1 shapeCasts_S11008x32x128_S11008x4096 (ix2 o i) (ix3 o (grp i) (lane i))
      (by rw [Shape.rowMajor_val_two, Shape.rowMajor_val_three]
          show (o.val * 32 + i.val / 128) * 128 + i.val % 128 = o.val * 4096 + i.val
          omega),
    sitofp_apply,
    shapeCast_apply a3 shapeCasts_S11008x32x1_S11008x32 (ix2 o (grp i)) (ix3 o (grp i) (0 : Fin 1))
      (by rw [Shape.rowMajor_val_two, Shape.rowMajor_val_three]
          show (o.val * 32 + i.val / 128) * 1 + 0 = o.val * 32 + i.val / 128
          omega),
    shapeCast_apply a2 shapeCasts_S11008x32x1_S11008x32 (ix2 o (grp i)) (ix3 o (grp i) (0 : Fin 1))
      (by rw [Shape.rowMajor_val_two, Shape.rowMajor_val_three]
          show (o.val * 32 + i.val / 128) * 1 + 0 = o.val * 32 + i.val / 128
          omega)]

/-- Every weakly fair execution of the kernel program terminates with the result buffer at the specification of the
    arguments, and the arguments as launched. -/
theorem run : θ_run defs (onTc (τ := τ) (main (F := Ideal))) ⟨m, fun _ => 0, ρ⟩ fun r => ∀ c : Dev nD,
      r.2.mem ((c : Thread nD τ).loc main_v8)
        = Cert.Spec.spec (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(((h c).2 main_v8 (Pipeline.mem_restRefs_of main_v8 (by decide) (by decide))).trans (tail_eq m c)).trans
        (kres_eq_spec _ _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arr

end
-- ==== Proof.RefRead.lean ====
/-
  The reference's result is the specification.

  The reference dequantizes all the weights, (w - z) * s with z and s broadcast along the 128 lanes of a group,
  views them as [11008, 4096] (column i holds group i / 128, lane i % 128), divides the input by the equalization
  scales broadcast along its first two axes, contracts the last axis of the input with the last axis of the
  weights (on the extended reals: the plain sum over the 4096 columns), and adds the bias broadcast along the first
  two axes. Read at (b, t, o), operation by operation, that is the specification's entry.
-/
import proofs.«159262_j50654844289583_2_alg».proof.Defs
import proofs.«159262_j50654844289583_2_alg».proof.Proof.Gen.ReferenceIdeal.Run
import proofs.«159262_j50654844289583_2_alg».proof.Proof.Gen.ReferenceIdeal.Read
import proofs.«159262_j50654844289583_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.SL.Sem
open Cert.Spec (grp lane specTerm specEntry spec)

/-- Column `k` of output row `o` of the flattened weights is group `k / 128`, lane `k % 128` of row `o`. -/
theorem flat_idx (j : S2x1024x11008.Idx) (o : Fin 11008) (k : Fin 4096) (ho : (j 2).val = o.val) :
    idx_main_v6 (ridx_main_v10 j k) = ix3 o (grp k) (lane k) := by
  have h1 : k.val < 4096 := k.isLt
  have h2 : o.val < 11008 := o.isLt
  funext a
  apply Fin.ext
  match a with
  | ⟨0, _⟩ => show ((j 2).val * 4096 + k.val) / 4096 = o.val; rw [ho]; omega
  | ⟨1, _⟩ => show ((j 2).val * 4096 + k.val) / 128 % 32 = k.val / 128; rw [ho]; omega
  | ⟨2, _⟩ => show ((j 2).val * 4096 + k.val) % 128 = k.val % 128; rw [ho]; omega

/-- The reference's result, as its generated stages compose it, is the specification of its arguments. -/
theorem ref_eq_spec (x0 : (⟨S2x1024x4096, .f32⟩ : BufTy).Contents (Elt Ideal)) (x1 : (⟨S11008x32x128, .i32⟩ : BufTy).Contents (Elt Ideal))
    (x2 : (⟨S11008x32x1, .f32⟩ : BufTy).Contents (Elt Ideal)) (x3 : (⟨S11008x32x1, .i32⟩ : BufTy).Contents (Elt Ideal))
    (x4 : (⟨S4096, .f32⟩ : BufTy).Contents (Elt Ideal)) (x5 : (⟨S11008, .f32⟩ : BufTy).Contents (Elt Ideal)) :
    val_main_v13 (F := Ideal) x0 x1 x2 x3 x4 x5 = spec x0 x1 x2 x3 x4 x5 := by
  funext j
  obtain ⟨b, t, o, rfl⟩ : ∃ (b : Fin 2) (t : Fin 1024) (o : Fin 11008), j = ix3 b t o := ⟨j 0, j 1, j 2, eq_ix3 j⟩
  rw [val_main_v13_apply, val_main_v10_apply, val_main_v12_apply, val_main_v11_apply]
  show (∑ k : Fin 4096, val_main_v9 (F := Ideal) x0 x4 (lidx_main_v10 (ix3 b t o) k)
      * val_main_v6 (F := Ideal) x1 x2 x3 (ridx_main_v10 (ix3 b t o) k)) + x5 (idx_main_v11 (idx_main_v12 (ix3 b t o)))
    = (∑ i : Fin 4096, specTerm x0 x1 x2 x3 x4 b t o i) + x5 (ix1 o)
  have hb : idx_main_v11 (idx_main_v12 (ix3 b t o)) = ix1 o := funext fun a => Fin.ext (by match a with | ⟨0, _⟩ => rfl)
  rw [hb]
  refine congrArg (· + x5 (ix1 o)) (Finset.sum_congr rfl fun k _ => ?_)
  have hl : lidx_main_v10 (ix3 b t o) k = ix3 b t k :=
    funext fun a => Fin.ext (by match a with | ⟨0, _⟩ => rfl | ⟨1, _⟩ => rfl | ⟨2, _⟩ => rfl)
  have he : idx_main_v7 (idx_main_v8 (ix3 b t k)) = ix1 k := funext fun a => Fin.ext (by match a with | ⟨0, _⟩ => rfl)
  have hf : idx_main_v6 (ridx_main_v10 (ix3 b t o) k) = ix3 o (grp k) (lane k) := flat_idx (ix3 b t o) o k rfl
  have hg : idx_main_v2 (ix3 o (grp k) (lane k)) = ix3 o (grp k) (0 : Fin 1) :=
    funext fun a => Fin.ext (by match a with | ⟨0, _⟩ => rfl | ⟨1, _⟩ => rfl | ⟨2, _⟩ => rfl)
  have hg' : idx_main_v4 (ix3 o (grp k) (lane k)) = ix3 o (grp k) (0 : Fin 1) :=
    funext fun a => Fin.ext (by match a with | ⟨0, _⟩ => rfl | ⟨1, _⟩ => rfl | ⟨2, _⟩ => rfl)
  rw [val_main_v9_apply, val_main_v8_apply, val_main_v7_apply, val_main_v6_apply, val_main_v5_apply, val_main_v3_apply,
    val_main_v0_apply, val_main_v2_apply, val_main_v1_apply, val_main_v4_apply, hl, he, hf, hg, hg']
  rfl

end Cert.ReferenceIdeal.RefValue

end
-- ==== Proof.lean ====
/- A fused dequantize-and-multiply kernel against its einsum reference, on the extended reals.

   The kernel computes, for activations x : [2, 1024, 4096], integer weights w : [11008, 32, 128] with one scale s
   and one integer zero point z per output row and group of 128 columns, equalization scales e : [4096] and a
   bias : [11008],

       out (b, t, o) = ∑ i < 4096, (x (b, t, i) / e i) * ((w (o, i) - z (o, i / 128)) * s (o, i / 128)) + bias o,

   on a 4 x 43 grid of [512, 256] output blocks: each grid point divides its block of x by e, walks the 32 groups,
   dequantizes one group's weights at a time, rounds both operands to bf16 (the identity on exact values) and adds
   their product over the group's 128 columns to an f32 accumulator that starts at zero, then adds the bias. The
   reference dequantizes all weights, divides the activations, and contracts all 4096 columns at once.

   The two agree because a sum over 4096 columns is the sum over the 32 groups of the sums over each group's 128
   columns, accumulated from zero in any order: commutativity and associativity of addition on the extended reals,
   which hold at the infinities too, so the precondition (finite inputs) is not used for the values. The pieces:
   the group step at an index (GroupStep), the accumulator chain the run leaves (BodyValue) read at an index
   (StepValue, BlockValue), the 172 blocks as one function of the arrays the region finds (ArrayValue), the host's
   layout changes around the region (KernelRun), the reference read operation by operation (RefRead), both equal
   to the one function of the arguments in Spec. The three frame claims are the generated frame runs (the
   reference's from its generated run); the idealization rewrote nothing, so `preserves` is trivial. -/
import proofs.«159262_j50654844289583_2_alg».proof.Defs
import proofs.«159262_j50654844289583_2_alg».proof.Proof.Gen.Kernel
import proofs.«159262_j50654844289583_2_alg».proof.Proof.Gen.Kernel.Skeleton
import proofs.«159262_j50654844289583_2_alg».proof.Proof.Gen.Kernel.Launch
import proofs.«159262_j50654844289583_2_alg».proof.Proof.Gen.Kernel.Points
import proofs.«159262_j50654844289583_2_alg».proof.Proof.Gen.Kernel.Frame
import proofs.«159262_j50654844289583_2_alg».proof.Proof.Gen.KernelIdeal
import proofs.«159262_j50654844289583_2_alg».proof.Proof.Gen.KernelIdeal.Skeleton
import proofs.«159262_j50654844289583_2_alg».proof.Proof.Gen.KernelIdeal.Launch
import proofs.«159262_j50654844289583_2_alg».proof.Proof.Gen.KernelIdeal.Points
import proofs.«159262_j50654844289583_2_alg».proof.Proof.Gen.KernelIdeal.Frame
import proofs.«159262_j50654844289583_2_alg».proof.Proof.Gen.ReferenceIdeal
import proofs.«159262_j50654844289583_2_alg».proof.Proof.Gen.ReferenceIdeal.Run
import proofs.«159262_j50654844289583_2_alg».proof.Proof.Gen.ReferenceIdeal.Read
import proofs.«159262_j50654844289583_2_alg».proof.Proof.Gen.Pre_finite_inputs
import proofs.«159262_j50654844289583_2_alg».proof.Proof.KernelRun
import proofs.«159262_j50654844289583_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the specification of the (agreeing) arguments. -/
theorem algebraic : Cert.algebraic_KernelIdeal_ReferenceIdeal := by
  intro m ρ m' ρ' _ hagree
  refine ⟨fun c => Cert.Spec.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v13_eq _ _ _ _ _ _).trans (Cert.ReferenceIdeal.RefValue.ref_eq_spec _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
